-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S500000x2 : Shape := ⟨2, ![500000, 2]⟩
abbrev S128x16 : Shape := ⟨2, ![128, 16]⟩
abbrev S16 : Shape := ⟨1, ![16]⟩
abbrev S16x32 : Shape := ⟨2, ![16, 32]⟩
abbrev S32 : Shape := ⟨1, ![32]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S64x1 .f32) (main_arg8 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S500000x2 32) (main_arg3 : FVec F S128x16 .f32) (main_arg4 : FVec F S16 .f32) (main_arg5 : FVec F S16x32 .f32) (main_arg6 : FVec F S32 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S500000x2 : Shape := ⟨2, ![500000, 2]⟩
abbrev S128x16 : Shape := ⟨2, ![128, 16]⟩
abbrev S16 : Shape := ⟨1, ![16]⟩
abbrev S16x32 : Shape := ⟨2, ![16, 32]⟩
abbrev S32 : Shape := ⟨1, ![32]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S5000x128 : Shape := ⟨2, ![5000, 128]⟩
abbrev S5000x16 : Shape := ⟨2, ![5000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩
abbrev S500000x1 : Shape := ⟨2, ![500000, 1]⟩
abbrev S500000 : Shape := ⟨1, ![500000]⟩
abbrev S500000x32 : Shape := ⟨2, ![500000, 32]⟩
abbrev S500000x64 : Shape := ⟨2, ![500000, 64]⟩
abbrev S1x1 : Shape := ⟨2, ![1, 1]⟩
abbrev S20000x64 : Shape := ⟨2, ![20000, 64]⟩
abbrev S20000x1 : Shape := ⟨2, ![20000, 1]⟩

abbrev nBuf : Space → Nat
  | .hbm => 164
  | .vmem => 16
  | .smem => 0
  | _ => 0

abbrev hbmTy0_0 (i : Nat) : BufTy := match i % 128 with
  | 0 => ⟨S100000x128, .f32⟩
  | 1 => ⟨S2x3200000, .i32⟩
  | 2 => ⟨S500000x2, .i32⟩
  | 3 => ⟨S128x16, .f32⟩
  | 4 => ⟨S16, .f32⟩
  | 5 => ⟨S16x32, .f32⟩
  | 6 => ⟨S32, .f32⟩
  | 7 => ⟨S64x1, .f32⟩
  | 8 => ⟨S1, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S100000x16, .f32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S3300000x1, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x16, .f32⟩
  | 63 => ⟨S3300000x16, .f32⟩
  | 64 => ⟨S3300000x16, .f32⟩
  | 65 => ⟨S_, .f32⟩
  | 66 => ⟨S100000x16, .f32⟩
  | 67 => ⟨S3300000x1, .i32⟩
  | 68 => ⟨S100000x16, .f32⟩
  | 69 => ⟨S1x16, .f32⟩
  | 70 => ⟨S100000x16, .f32⟩
  | 71 => ⟨S100000x16, .f32⟩
  | 72 => ⟨S_, .f32⟩
  | 73 => ⟨S100000x16, .f32⟩
  | 74 => ⟨S100000x16, .f32⟩
  | 75 => ⟨S100000, .i32⟩
  | 76 => ⟨S1x3200000, .i32⟩
  | 77 => ⟨S3200000, .i32⟩
  | 78 => ⟨S3300000, .i32⟩
  | 79 => ⟨S1x3200000, .i32⟩
  | 80 => ⟨S3200000, .i32⟩
  | 81 => ⟨S3300000, .i32⟩
  | 82 => ⟨S100000x32, .f32⟩
  | 83 => ⟨S_, .f32⟩
  | 84 => ⟨S3300000, .f32⟩
  | 85 => ⟨S_, .f32⟩
  | 86 => ⟨S100000, .f32⟩
  | 87 => ⟨S3300000x1, .i32⟩
  | 88 => ⟨S100000, .f32⟩
  | 89 => ⟨S_, .f32⟩
  | 90 => ⟨S100000, .f32⟩
  | 91 => ⟨S100000, .i1⟩
  | 92 => ⟨S_, .f32⟩
  | 93 => ⟨S100000, .f32⟩
  | 94 => ⟨S100000, .f32⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000, .f32⟩
  | 118 => ⟨S3300000, .f32⟩
  | 119 => ⟨S3300000x1, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S100000x128, .f32⟩

abbrev hbmTy0_1 (i : Nat) : BufTy := match i % 128 with
  | 0 => ⟨S3300000x32, .f32⟩
  | 1 => ⟨S3300000x32, .f32⟩
  | 2 => ⟨S3300000x32, .f32⟩
  | 3 => ⟨S_, .f32⟩
  | 4 => ⟨S100000x32, .f32⟩
  | 5 => ⟨S3300000x1, .i32⟩
  | 6 => ⟨S100000x32, .f32⟩
  | 7 => ⟨S1x32, .f32⟩
  | 8 => ⟨S100000x32, .f32⟩
  | 9 => ⟨S100000x32, .f32⟩
  | 10 => ⟨S500000x1, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x32, .f32⟩
  | 21 => ⟨S500000x1, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x32, .f32⟩
  | 32 => ⟨S500000x64, .f32⟩
  | 33 => ⟨S1x1, .f32⟩
  | 34 => ⟨S500000x1, .f32⟩
  | 35 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x32, .f32⟩
  | .local _ .vmem, ⟨8, _⟩ => ⟨S5000x32, .f32⟩
  | .local _ .vmem, ⟨9, _⟩ => ⟨S5000x32, .f32⟩
  | .local _ .vmem, ⟨10, _⟩ => ⟨S20000x64, .f32⟩
  | .local _ .vmem, ⟨11, _⟩ => ⟨S20000x64, .f32⟩
  | .local _ .vmem, ⟨12, _⟩ => ⟨S64x1, .f32⟩
  | .local _ .vmem, ⟨13, _⟩ => ⟨S1x1, .f32⟩
  | .local _ .vmem, ⟨14, _⟩ => ⟨S20000x1, .f32⟩
  | .local _ .vmem, ⟨15, _⟩ => ⟨S20000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_call2_v0 : Ref sig .tc := ⟨.hbm, 97, rfl⟩
abbrev main_call2_v1 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_22 : Ref sig .tc := ⟨.hbm, 140, rfl⟩
abbrev main_v101 : Ref sig .tc := ⟨.hbm, 141, rfl⟩
abbrev main_v102 : Ref sig .tc := ⟨.hbm, 142, rfl⟩
abbrev main_c_23 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_24 : Ref sig .tc := ⟨.hbm, 151, rfl⟩
abbrev main_v110 : Ref sig .tc := ⟨.hbm, 152, rfl⟩
abbrev main_v111 : Ref sig .tc := ⟨.hbm, 153, rfl⟩
abbrev main_c_25 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  concatenates_S500000x32_S500000x32_S500000x64_d1 : Shape.Concatenates [S500000x32, S500000x32] S500000x64 1
  shapeCasts_S1_S1x1 : S1.ShapeCasts S1x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  dot_S5000x128_S128x16_S5000x16_1_0_0_1_n_n_wf : DotDims.WF S5000x128 S128x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x32_S5000x32_1_0_0_1_n_n_wf : DotDims.WF S5000x16 S16x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  gather_S100000x32_S500000x1_S500000x32_1_0_n_n_0_1_132_wf : GatherDims.WF S100000x32 S500000x1 S500000x32 [1] [0] [] [0] [] 1 ![1, 32]
  dot_S20000x64_S64x1_S20000x1_1_0_0_1_n_n_wf : DotDims.WF S20000x64 S64x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S500000x64.size a
  hwx2_0 : ∀ i : grid2.Coords, EltTy.bits .f32 = 32 ∨ (Rect.block (s := S500000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x1.size a ≤ S500000x1.size a
  hwx2_3 : ∀ i : grid2.Coords, EltTy.bits .f32 = 32 ∨ (Rect.block (s := S500000x1) S20000x1.size (cc2_transform_3 i) (hinb2_3 i)).WholeWords (EltTy.packing .f32)

variable [Facts₀]

def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v117) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v118) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v119) S20000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S500000x2 : Shape := ⟨2, ![500000, 2]⟩
abbrev S128x16 : Shape := ⟨2, ![128, 16]⟩
abbrev S16 : Shape := ⟨1, ![16]⟩
abbrev S16x32 : Shape := ⟨2, ![16, 32]⟩
abbrev S32 : Shape := ⟨1, ![32]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩
abbrev S500000x1 : Shape := ⟨2, ![500000, 1]⟩
abbrev S500000 : Shape := ⟨1, ![500000]⟩
abbrev S500000x32 : Shape := ⟨2, ![500000, 32]⟩
abbrev S500000x64 : Shape := ⟨2, ![500000, 64]⟩
abbrev S1x1 : Shape := ⟨2, ![1, 1]⟩

abbrev nBuf : Space → Nat
  | .hbm => 174
  | .vmem => 0
  | .smem => 0
  | _ => 0

abbrev hbmTy0_0 (i : Nat) : BufTy := match i % 128 with
  | 0 => ⟨S100000x128, .f32⟩
  | 1 => ⟨S2x3200000, .i32⟩
  | 2 => ⟨S500000x2, .i32⟩
  | 3 => ⟨S128x16, .f32⟩
  | 4 => ⟨S16, .f32⟩
  | 5 => ⟨S16x32, .f32⟩
  | 6 => ⟨S32, .f32⟩
  | 7 => ⟨S64x1, .f32⟩
  | 8 => ⟨S1, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S100000x16, .f32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S3300000x1, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x16, .f32⟩
  | 63 => ⟨S3300000x16, .f32⟩
  | 64 => ⟨S3300000x16, .f32⟩
  | 65 => ⟨S_, .f32⟩
  | 66 => ⟨S100000x16, .f32⟩
  | 67 => ⟨S3300000x1, .i32⟩
  | 68 => ⟨S100000x16, .f32⟩
  | 69 => ⟨S1x16, .f32⟩
  | 70 => ⟨S100000x16, .f32⟩
  | 71 => ⟨S100000x16, .f32⟩
  | 72 => ⟨S_, .f32⟩
  | 73 => ⟨S100000x16, .f32⟩
  | 74 => ⟨S100000x16, .f32⟩
  | 75 => ⟨S100000, .i32⟩
  | 76 => ⟨S1x3200000, .i32⟩
  | 77 => ⟨S3200000, .i32⟩
  | 78 => ⟨S3300000, .i32⟩
  | 79 => ⟨S1x3200000, .i32⟩
  | 80 => ⟨S3200000, .i32⟩
  | 81 => ⟨S3300000, .i32⟩
  | 82 => ⟨S100000x32, .f32⟩
  | 83 => ⟨S_, .f32⟩
  | 84 => ⟨S3300000, .f32⟩
  | 85 => ⟨S_, .f32⟩
  | 86 => ⟨S100000, .f32⟩
  | 87 => ⟨S3300000x1, .i32⟩
  | 88 => ⟨S100000, .f32⟩
  | 89 => ⟨S_, .f32⟩
  | 90 => ⟨S100000, .f32⟩
  | 91 => ⟨S100000, .i1⟩
  | 92 => ⟨S_, .f32⟩
  | 93 => ⟨S100000, .f32⟩
  | 94 => ⟨S100000, .f32⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000, .f32⟩
  | 118 => ⟨S3300000, .f32⟩
  | 119 => ⟨S3300000x1, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S100000x128, .f32⟩

abbrev hbmTy0_1 (i : Nat) : BufTy := match i % 128 with
  | 0 => ⟨S3300000x32, .f32⟩
  | 1 => ⟨S3300000x32, .f32⟩
  | 2 => ⟨S3300000x32, .f32⟩
  | 3 => ⟨S_, .f32⟩
  | 4 => ⟨S100000x32, .f32⟩
  | 5 => ⟨S3300000x1, .i32⟩
  | 6 => ⟨S100000x32, .f32⟩
  | 7 => ⟨S1x32, .f32⟩
  | 8 => ⟨S100000x32, .f32⟩
  | 9 => ⟨S100000x32, .f32⟩
  | 10 => ⟨S500000x1, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x32, .f32⟩
  | 21 => ⟨S500000x1, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x32, .f32⟩
  | 32 => ⟨S500000x64, .f32⟩
  | 33 => ⟨S500000x1, .f32⟩
  | 34 => ⟨S1x1, .f32⟩
  | 35 => ⟨S500000x1, .f32⟩
  | 36 => ⟨S500000x1, .f32⟩
  | 37 => ⟨S500000x1, .f32⟩
  | 38 => ⟨S500000x1, .f32⟩
  | 39 => ⟨S_, .f32⟩
  | 40 => ⟨S500000x1, .f32⟩
  | 41 => ⟨S500000x1, .f32⟩
  | 42 => ⟨S_, .f32⟩
  | 43 => ⟨S500000x1, .f32⟩
  | 44 => ⟨S500000x1, .f32⟩
  | 45 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_call2_v0 : Ref sig .tc := ⟨.hbm, 97, rfl⟩
abbrev main_call2_v1 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_22 : Ref sig .tc := ⟨.hbm, 140, rfl⟩
abbrev main_v101 : Ref sig .tc := ⟨.hbm, 141, rfl⟩
abbrev main_v102 : Ref sig .tc := ⟨.hbm, 142, rfl⟩
abbrev main_c_23 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_24 : Ref sig .tc := ⟨.hbm, 151, rfl⟩
abbrev main_v110 : Ref sig .tc := ⟨.hbm, 152, rfl⟩
abbrev main_v111 : Ref sig .tc := ⟨.hbm, 153, rfl⟩
abbrev main_c_25 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_26 : Ref sig .tc := ⟨.hbm, 167, rfl⟩
abbrev main_v124 : Ref sig .tc := ⟨.hbm, 168, rfl⟩
abbrev main_v125 : Ref sig .tc := ⟨.hbm, 169, rfl⟩
abbrev main_cst_27 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  concatenates_S500000x32_S500000x32_S500000x64_d1 : Shape.Concatenates [S500000x32, S500000x32] S500000x64 1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  gather_S100000x32_S500000x1_S500000x32_1_0_n_n_0_1_132_wf : GatherDims.WF S100000x32 S500000x1 S500000x32 [1] [0] [] [0] [] 1 ![1, 32]
  dot_S500000x64_S64x1_S500000x1_1_0_0_1_n_n_wf : DotDims.WF S500000x64 S64x1 S500000x1 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KernelRun.lean ====
/-
  The kernel's run with its result named.

  The whole program is thirteen segments: ten stretches of host operations and three tiled regions.  The contents of every
  buffer at each boundary are a fold from the launch memory (the stretches apply their operations; a region replaces its
  output array by what its write-backs leave).  Every weakly fair execution terminates without a fault; in the final state
  every buffer that outlives the regions holds the last fold's contents.  Read at the result buffer this names the result; read at an
  argument it gives the launch contents back, because no segment writes an argument.
-/
import proofs.«108121_j79963701117029_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last fold's contents
    and every argument array as launched. -/
theorem run : θ_run defs (onTc (τ := τ) (main (F := F))) ⟨m, fun _ => 0, ρ⟩ (fun r => ∀ c : Dev nD,
      r.2.mem ((c.tc : Thread nD τ).loc main_v120) = W13 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v120 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Whole

end
-- ==== Proof.Glue.lean ====
/-
  The graph network both programs compute, cut at its three matrix products.

  Nodes carry feature rows; the edge list (two rows of node numbers: sources, targets) is extended by one self-loop per node.
  A node's degree is the number of extended edges that end at it; an edge's weight is the product of the inverse square roots of
  the degrees of its two ends (a node of degree zero gets the factor zero).  One layer sends the transformed features of every
  edge's source, scaled by the edge's weight, to the edge's target, sums what arrives there, and adds one bias row.  Between the
  two layers negative entries are replaced by zero.  For every example (a pair of nodes) the two final feature rows are laid
  side by side, multiplied into one weight column, shifted by one bias, and passed through 1 / (1 + exp (−y)).

  Everything here except the three products is the same text in both programs, so it is kept as opaque functions of the
  products' results: the two programs are compared only at the products and at the last function.  A node number read from an
  input may be negative: it is then counted from the end, as both programs do before every lookup.
-/
import proofs.«108121_j79963701117029_1_alg».proof.Proof.Gen.ReferenceIdeal

noncomputable section

namespace Cert.Gcn

open Cert.ReferenceIdeal Cert.ReferenceIdeal.Gen Idealize.ShloMosaic

variable {F : FTy → Type} [FloatOps F]

/-! ## The extended edge list -/

/-- The sources of the edges, then every node once. -/
def sources (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The targets of the edges, then every node once. -/
def targets (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A list of node numbers as a one-column table of lookup positions. -/
def column (v : IVec S3300000 32) : IVec S3300000x1 32 := broadcastInDim S3300000x1 ![0] bcast_S3300000_S3300000x1_0 v

/-- A negative node number counts from the end: the number of nodes is added to it. -/
def fromEnd (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-! ## Degrees and edge weights -/

/-- How many extended edges end at each node: ones summed into zeros at the targets. -/
def degree (e : IVec S2x3200000 32) : FVec F S100000 .f32 :=
  Host.scatterAdd scatter_S100000_S3300000x1_S3300000_n_0_0_1
    (broadcastInDim S100000 ![] bcast_S_S100000 (constant (F := F) S_ .f32 0x00000000#32)) (column (targets e))
    (broadcastInDim S3300000 ![] bcast_S_S3300000 (constant (F := F) S_ .f32 0x3F800000#32))

/-- The inverse square root of a positive degree (of the degree raised to at least one), and zero where the degree is not positive. -/
def invSqrtDegree (e : IVec S2x3200000 32) : FVec F S100000 .f32 :=
  select (cmpf .ogt (degree (F := F) e) (broadcastInDim S100000 ![] bcast_S_S100000 (constant (F := F) S_ .f32 0x00000000#32)))
    (Host.rsqrt (maximumf (degree (F := F) e) (broadcastInDim S100000 ![] bcast_S_S100000 (constant (F := F) S_ .f32 0x3F800000#32))))
    (broadcastInDim S100000 ![] bcast_S_S100000 (constant (F := F) S_ .f32 0x00000000#32))

/-- An edge's weight: the product of the two factors at its ends. -/
def edgeWeight (e : IVec S2x3200000 32) : FVec F S3300000 .f32 :=
  mulf (Host.gather gather_S100000_S3300000x1_S3300000_n_0_n_n_0_1_1 (invSqrtDegree (F := F) e) (column (fromEnd (sources e))))
    (Host.gather gather_S100000_S3300000x1_S3300000_n_0_n_n_0_1_1 (invSqrtDegree (F := F) e) (column (fromEnd (targets e))))

/-! ## One layer's aggregation, at width 16 and at width 32 -/

/-- The weighted rows of the sources summed at the targets, plus the bias row: width 16. -/
def spread16 (h : FVec F S100000x16 .f32) (e : IVec S2x3200000 32) (b : FVec F S16 .f32) : FVec F S100000x16 .f32 :=
  addf (Host.scatterAdd scatter_S100000x16_S3300000x1_S3300000x16_1_0_0_1
      (broadcastInDim S100000x16 ![] bcast_S_S100000x16 (constant (F := F) S_ .f32 0x00000000#32)) (column (targets e))
      (mulf (broadcastInDim S3300000x16 ![0, 1] bcast_S3300000x1_S3300000x16_0_1 (broadcastInDim S3300000x1 ![0] bcast_S3300000_S3300000x1_0 (edgeWeight (F := F) e)))
        (Host.gather gather_S100000x16_S3300000x1_S3300000x16_1_0_n_n_0_1_116 h (column (fromEnd (sources e))))))
    (broadcastInDim S100000x16 ![0, 1] bcast_S1x16_S100000x16_0_1 (broadcastInDim S1x16 ![1] bcast_S16_S1x16_1 b))

/-- Negative entries replaced by zero. -/
def positivePart (a : FVec F S100000x16 .f32) : FVec F S100000x16 .f32 :=
  maximumf a (broadcastInDim S100000x16 ![] bcast_S_S100000x16 (constant (F := F) S_ .f32 0x00000000#32))

/-- The weighted rows of the sources summed at the targets, plus the bias row: width 32. -/
def spread32 (h : FVec F S100000x32 .f32) (e : IVec S2x3200000 32) (b : FVec F S32 .f32) : FVec F S100000x32 .f32 :=
  addf (Host.scatterAdd scatter_S100000x32_S3300000x1_S3300000x32_1_0_0_1
      (broadcastInDim S100000x32 ![] bcast_S_S100000x32 (constant (F := F) S_ .f32 0x00000000#32)) (column (targets e))
      (mulf (broadcastInDim S3300000x32 ![0, 1] bcast_S3300000x1_S3300000x32_0_1 (broadcastInDim S3300000x1 ![0] bcast_S3300000_S3300000x1_0 (edgeWeight (F := F) e)))
        (Host.gather gather_S100000x32_S3300000x1_S3300000x32_1_0_n_n_0_1_132 h (column (fromEnd (sources e))))))
    (broadcastInDim S100000x32 ![0, 1] bcast_S1x32_S100000x32_0_1 (broadcastInDim S1x32 ![1] bcast_S32_S1x32_1 b))

/-! ## The examples -/

/-- The first node of every example. -/
def firstNode (x : IVec S500000x2 32) : IVec S500000 32 :=
  shapeCast S500000 (extractStridedSlice S500000x1 ![0, 0] x slices_S500000x2_S500000x1_0_0) shapeCasts_S500000x1_S500000

/-- The second node of every example. -/
def secondNode (x : IVec S500000x2 32) : IVec S500000 32 :=
  shapeCast S500000 (extractStridedSlice S500000x1 ![0, 1] x slices_S500000x2_S500000x1_0_1) shapeCasts_S500000x1_S500000

/-- A negative node number of an example counts from the end, then the list becomes a one-column table of lookup positions. -/
def lookup (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- The feature rows of an example's two nodes, side by side. -/
def pairRows (z : FVec F S100000x32 .f32) (x : IVec S500000x2 32) : FVec F S500000x64 .f32 :=
  concatenate S500000x64 1 [⟨S500000x32, Host.gather gather_S100000x32_S500000x1_S500000x32_1_0_n_n_0_1_132 z (lookup (firstNode x))⟩,
    ⟨S500000x32, Host.gather gather_S100000x32_S500000x1_S500000x32_1_0_n_n_0_1_132 z (lookup (secondNode x))⟩] concatenates_S500000x32_S500000x32_S500000x64_d1

/-! ## The last function, and the whole network -/

/-- 1 / (1 + exp (−(y + bias))) at every example, the one bias entry added to every row. -/
def squash (y : FVec F S500000x1 .f32) (bias : FVec F S1x1 .f32) : FVec F S500000x1 .f32 :=
  Host.divf (broadcastInDim S500000x1 ![] bcast_S_S500000x1 (constant (F := F) S_ .f32 0x3F800000#32))
    (addf (broadcastInDim S500000x1 ![] bcast_S_S500000x1 (constant (F := F) S_ .f32 0x3F800000#32))
      (Host.exp (Host.negf (addf y (broadcastInDim S500000x1 ![0, 1] bcast_S1x1_S500000x1_0_1 bias)))))

/-- The one column of results as a list. -/
def asList (s : FVec F S500000x1 .f32) : FVec F S500000 .f32 := shapeCast S500000 s shapeCasts_S500000x1_S500000

/-- The rows the second product is applied to: the first layer of the first product's result. -/
def hidden (p1 : FVec F S100000x16 .f32) (e : IVec S2x3200000 32) (b1 : FVec F S16 .f32) : FVec F S100000x16 .f32 :=
  positivePart (spread16 p1 e b1)

/-- The rows the third product is applied to: the examples' pairs of the second layer of the second product's result. -/
def pairs (p2 : FVec F S100000x32 .f32) (e : IVec S2x3200000 32) (b2 : FVec F S32 .f32) (x : IVec S500000x2 32) : FVec F S500000x64 .f32 :=
  pairRows (spread32 p2 e b2) x

/-- The whole network, the three products by the host's contraction. -/
def network (x0 : FVec F S100000x128 .f32) (e : IVec S2x3200000 32) (x : IVec S500000x2 32) (w1 : FVec F S128x16 .f32) (b1 : FVec F S16 .f32)
    (w2 : FVec F S16x32 .f32) (b2 : FVec F S32 .f32) (wf : FVec F S64x1 .f32) (bias : FVec F S1x1 .f32) : FVec F S500000 .f32 :=
  asList (squash (Host.dotGeneral dot_S500000x64_S64x1_S500000x1_1_0_0_1_n_n none
    (pairs (Host.dotGeneral dot_S100000x16_S16x32_S100000x32_1_0_0_1_n_n none
      (hidden (Host.dotGeneral dot_S100000x128_S128x16_S100000x16_1_0_0_1_n_n none x0 w1) e b1) w2) e b2 x) wf) bias)

end Cert.Gcn

end
-- ==== Proof.KernelFold.lean ====
/-
  The contents of the buffers between the kernel's segments.

  The host stretches before, between and after the three regions are straight lines of array operations, so what a buffer
  holds after a stretch is the stretch's operations applied to what the buffers held before it; a region changes only its own
  result array.  Followed from the launch memory:
  · no segment writes an argument, so an argument is read at its launch contents wherever it is read;
  · the first stretch lists the extended edges' sources and targets; they are listed again, by the same operations, just before
    the second region;
  · between the first and second regions the buffers hold the first layer of the first region's result (its aggregation over the
    edges, the bias, the positive part);
  · between the second and third regions they hold the examples' pairs of the second layer of the second region's result, and the
    one bias entry laid out as a 1 × 1 array;
  · the last stretch lays the third region's column out as a list.
  Every step is the operations' own text read back; nothing is computed.
-/
import proofs.«108121_j79963701117029_1_alg».proof.Proof.Gen.KernelIdeal.Frame
import proofs.«108121_j79963701117029_1_alg».proof.Proof.Glue
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable {F : FTy → Type} [FloatOps F]
/-- A two-piece concatenation depends on its pieces only through their contents (so a rewriting pass may work inside the pieces). -/
@[local congr] theorem concat2_congr {α : Type} {t s₁ s₂ : Shape} (a : Fin t.rank) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

variable (m : (ℓ : Loc nD τ sig) → Buf (Elt F) ℓ) (ρ : Dev nD → PrngReg)

/-! ## After the first stretch (the first region's entry) -/

theorem w1_arg0 (c : Dev nD) : W1 m ρ c (Proc.devRef .tc main_arg0) = m ((c : Thread nD τ).loc main_arg0) := by
  dsimp only [W1, W0, hostOps0]
  after_results_simp <;> rfl
theorem w1_arg1 (c : Dev nD) : W1 m ρ c (Proc.devRef .tc main_arg1) = m ((c : Thread nD τ).loc main_arg1) := by
  dsimp only [W1, W0, hostOps0]
  after_results_simp <;> rfl
theorem w1_arg2 (c : Dev nD) : W1 m ρ c (Proc.devRef .tc main_arg2) = m ((c : Thread nD τ).loc main_arg2) := by
  dsimp only [W1, W0, hostOps0]
  after_results_simp <;> rfl
theorem w1_arg3 (c : Dev nD) : W1 m ρ c (Proc.devRef .tc main_arg3) = m ((c : Thread nD τ).loc main_arg3) := by
  dsimp only [W1, W0, hostOps0]
  after_results_simp <;> rfl
theorem w1_arg4 (c : Dev nD) : W1 m ρ c (Proc.devRef .tc main_arg4) = m ((c : Thread nD τ).loc main_arg4) := by
  dsimp only [W1, W0, hostOps0]
  after_results_simp <;> rfl
theorem w1_arg5 (c : Dev nD) : W1 m ρ c (Proc.devRef .tc main_arg5) = m ((c : Thread nD τ).loc main_arg5) := by
  dsimp only [W1, W0, hostOps0]
  after_results_simp <;> rfl
theorem w1_arg6 (c : Dev nD) : W1 m ρ c (Proc.devRef .tc main_arg6) = m ((c : Thread nD τ).loc main_arg6) := by
  dsimp only [W1, W0, hostOps0]
  after_results_simp <;> rfl
theorem w1_arg7 (c : Dev nD) : W1 m ρ c (Proc.devRef .tc main_arg7) = m ((c : Thread nD τ).loc main_arg7) := by
  dsimp only [W1, W0, hostOps0]
  after_results_simp <;> rfl
theorem w1_arg8 (c : Dev nD) : W1 m ρ c (Proc.devRef .tc main_arg8) = m ((c : Thread nD τ).loc main_arg8) := by
  dsimp only [W1, W0, hostOps0]
  after_results_simp <;> rfl

/-- The first stretch lists the extended edges' sources … -/
theorem w1_sources (c : Dev nD) : W1 m ρ c (Proc.devRef .tc main_v3) = Cert.Gcn.sources (m ((c : Thread nD τ).loc main_arg1)) := by
  dsimp only [W1, W0, hostOps0]
  after_results_simp <;> rfl
/-- … and their targets. -/
theorem w1_targets (c : Dev nD) : W1 m ρ c (Proc.devRef .tc main_v6) = Cert.Gcn.targets (m ((c : Thread nD τ).loc main_arg1)) := by
  dsimp only [W1, W0, hostOps0]
  after_results_simp <;> rfl

/-! ## After the first region: only its result array has changed -/

theorem w2_arg1 (c : Dev nD) : W2 m ρ c (Proc.devRef .tc main_arg1) = m ((c : Thread nD τ).loc main_arg1) :=
  (W2_of_ne m ρ c main_arg1 (by decide)).trans (w1_arg1 m ρ c)
theorem w2_arg2 (c : Dev nD) : W2 m ρ c (Proc.devRef .tc main_arg2) = m ((c : Thread nD τ).loc main_arg2) :=
  (W2_of_ne m ρ c main_arg2 (by decide)).trans (w1_arg2 m ρ c)
theorem w2_arg4 (c : Dev nD) : W2 m ρ c (Proc.devRef .tc main_arg4) = m ((c : Thread nD τ).loc main_arg4) :=
  (W2_of_ne m ρ c main_arg4 (by decide)).trans (w1_arg4 m ρ c)
theorem w2_arg5 (c : Dev nD) : W2 m ρ c (Proc.devRef .tc main_arg5) = m ((c : Thread nD τ).loc main_arg5) :=
  (W2_of_ne m ρ c main_arg5 (by decide)).trans (w1_arg5 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)
theorem w2_arg8 (c : Dev nD) : W2 m ρ c (Proc.devRef .tc main_arg8) = m ((c : Thread nD τ).loc main_arg8) :=
  (W2_of_ne m ρ c main_arg8 (by decide)).trans (w1_arg8 m ρ c)
theorem w2_sources (c : Dev nD) : W2 m ρ c (Proc.devRef .tc main_v3) = Cert.Gcn.sources (m ((c : Thread nD τ).loc main_arg1)) :=
  (W2_of_ne m ρ c main_v3 (by decide)).trans (w1_sources m ρ c)
theorem w2_targets (c : Dev nD) : W2 m ρ c (Proc.devRef .tc main_v6) = Cert.Gcn.targets (m ((c : Thread nD τ).loc main_arg1)) :=
  (W2_of_ne m ρ c main_v6 (by decide)).trans (w1_targets m ρ c)

/-! ## After the five stretches between the first and second regions (the second region's entry) -/

theorem w7_arg1 (c : Dev nD) : W7 m ρ c (Proc.devRef .tc main_arg1) = m ((c : Thread nD τ).loc main_arg1) := by
  dsimp only [W7, W6, W5, W4, W3, hostOps1, hostOps1_1, hostOps1_2, hostOps1_3, hostOps1_4]
  after_results_simp
  exact w2_arg1 m ρ c
theorem w7_arg2 (c : Dev nD) : W7 m ρ c (Proc.devRef .tc main_arg2) = m ((c : Thread nD τ).loc main_arg2) := by
  dsimp only [W7, W6, W5, W4, W3, hostOps1, hostOps1_1, hostOps1_2, hostOps1_3, hostOps1_4]
  after_results_simp
  exact w2_arg2 m ρ c
theorem w7_arg5 (c : Dev nD) : W7 m ρ c (Proc.devRef .tc main_arg5) = m ((c : Thread nD τ).loc main_arg5) := by
  dsimp only [W7, W6, W5, W4, W3, hostOps1, hostOps1_1, hostOps1_2, hostOps1_3, hostOps1_4]
  after_results_simp
  exact w2_arg5 m ρ c
theorem w7_arg6 (c : Dev nD) : W7 m ρ c (Proc.devRef .tc main_arg6) = m ((c : Thread nD τ).loc main_arg6) := by
  dsimp only [W7, W6, W5, W4, W3, hostOps1, hostOps1_1, hostOps1_2, hostOps1_3, hostOps1_4]
  after_results_simp
  exact w2_arg6 m ρ c
theorem w7_arg7 (c : Dev nD) : W7 m ρ c (Proc.devRef .tc main_arg7) = m ((c : Thread nD τ).loc main_arg7) := by
  dsimp only [W7, W6, W5, W4, W3, hostOps1, hostOps1_1, hostOps1_2, hostOps1_3, hostOps1_4]
  after_results_simp
  exact w2_arg7 m ρ c
theorem w7_arg8 (c : Dev nD) : W7 m ρ c (Proc.devRef .tc main_arg8) = m ((c : Thread nD τ).loc main_arg8) := by
  dsimp only [W7, W6, W5, W4, W3, hostOps1, hostOps1_1, hostOps1_2, hostOps1_3, hostOps1_4]
  after_results_simp
  exact w2_arg8 m ρ c

set_option maxHeartbeats 4000000 in
/-- The rows the second region multiplies: the first layer of the first region's result. -/
theorem w7_hidden (c : Dev nD) : W7 m ρ c (Proc.devRef .tc main_v49)
    = Cert.Gcn.hidden (F := F) (W2 m ρ c (Proc.devRef .tc main_v7)) (m ((c : Thread nD τ).loc main_arg1)) (m ((c : Thread nD τ).loc main_arg4)) := by
  dsimp only [W7, W6, W5, W4, W3, hostOps1, hostOps1_1, hostOps1_2, hostOps1_3, hostOps1_4]
  after_results_simp
  rw [w2_sources m ρ c, w2_targets m ρ c, w2_arg4 m ρ c]
  rfl

/-- The extended edges' sources, listed again … -/
theorem w7_sources (c : Dev nD) : W7 m ρ c (Proc.devRef .tc main_v53) = Cert.Gcn.sources (m ((c : Thread nD τ).loc main_arg1)) := by
  dsimp only [W7, W6, W5, W4, W3, hostOps1, hostOps1_1, hostOps1_2, hostOps1_3, hostOps1_4]
  after_results_simp
  rw [w2_arg1 m ρ c]
  rfl
/-- … and their targets. -/
theorem w7_targets (c : Dev nD) : W7 m ρ c (Proc.devRef .tc main_v56) = Cert.Gcn.targets (m ((c : Thread nD τ).loc main_arg1)) := by
  dsimp only [W7, W6, W5, W4, W3, hostOps1, hostOps1_1, hostOps1_2, hostOps1_3, hostOps1_4]
  after_results_simp
  rw [w2_arg1 m ρ c]
  rfl

/-! ## After the second region: only its result array has changed -/

theorem w8_arg2 (c : Dev nD) : W8 m ρ c (Proc.devRef .tc main_arg2) = m ((c : Thread nD τ).loc main_arg2) :=
  (W8_of_ne m ρ c main_arg2 (by decide)).trans (w7_arg2 m ρ c)
theorem w8_arg6 (c : Dev nD) : W8 m ρ c (Proc.devRef .tc main_arg6) = m ((c : Thread nD τ).loc main_arg6) :=
  (W8_of_ne m ρ c main_arg6 (by decide)).trans (w7_arg6 m ρ c)
theorem w8_arg7 (c : Dev nD) : W8 m ρ c (Proc.devRef .tc main_arg7) = m ((c : Thread nD τ).loc main_arg7) :=
  (W8_of_ne m ρ c main_arg7 (by decide)).trans (w7_arg7 m ρ c)
theorem w8_arg8 (c : Dev nD) : W8 m ρ c (Proc.devRef .tc main_arg8) = m ((c : Thread nD τ).loc main_arg8) :=
  (W8_of_ne m ρ c main_arg8 (by decide)).trans (w7_arg8 m ρ c)
theorem w8_sources (c : Dev nD) : W8 m ρ c (Proc.devRef .tc main_v53) = Cert.Gcn.sources (m ((c : Thread nD τ).loc main_arg1)) :=
  (W8_of_ne m ρ c main_v53 (by decide)).trans (w7_sources m ρ c)
theorem w8_targets (c : Dev nD) : W8 m ρ c (Proc.devRef .tc main_v56) = Cert.Gcn.targets (m ((c : Thread nD τ).loc main_arg1)) :=
  (W8_of_ne m ρ c main_v56 (by decide)).trans (w7_targets m ρ c)

/-! ## After the three stretches between the second and third regions (the third region's entry) -/

theorem w11_arg7 (c : Dev nD) : W11 m ρ c (Proc.devRef .tc main_arg7) = m ((c : Thread nD τ).loc main_arg7) := by
  dsimp only [W11, W10, W9, hostOps2, hostOps2_1, hostOps2_2]
  after_results_simp
  exact w8_arg7 m ρ c

set_option maxHeartbeats 8000000 in
/-- The rows the third region multiplies: the examples' pairs of the second layer of the second region's result. -/
theorem w11_pairs (c : Dev nD) : W11 m ρ c (Proc.devRef .tc main_v117)
    = Cert.Gcn.pairs (F := F) (W8 m ρ c (Proc.devRef .tc main_v57)) (m ((c : Thread nD τ).loc main_arg1)) (m ((c : Thread nD τ).loc main_arg6)) (m ((c : Thread nD τ).loc main_arg2)) := by
  dsimp only [W11, W10, W9, hostOps2, hostOps2_1, hostOps2_2]
  after_results_simp
  rw [w8_sources m ρ c, w8_targets m ρ c, w8_arg6 m ρ c, w8_arg2 m ρ c]
  rfl

/-- The one bias entry, laid out as a 1 × 1 array. -/
theorem w11_bias (c : Dev nD) : W11 m ρ c (Proc.devRef .tc main_v118) = shapeCast S1x1 (m ((c : Thread nD τ).loc main_arg8)) shapeCasts_S1_S1x1 := by
  dsimp only [W11, W10, W9, hostOps2, hostOps2_1, hostOps2_2]
  after_results_simp
  rw [w8_arg8 m ρ c]
  rfl

/-! ## After the last stretch -/

/-- The result is the third region's column laid out as a list. -/
theorem w13_result (c : Dev nD) : W13 m ρ c (Proc.devRef .tc main_v120) = Cert.Gcn.asList (F := F) (W12 m ρ c (Proc.devRef .tc main_v119)) := by
  dsimp only [W13, hostOps3]
  after_results_simp <;> rfl

end Cert.KernelIdeal.Fold

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.LibRowRel.lean ====
/-
  Arrays related row by row.

  Two matrices x : [M, N] and y : [M', N] are related along a map ρ of rows when row p of x is row ρ p of y,
  entry by entry, as extended reals.  Every operation that treats the rows of a matrix separately preserves the
  relation: a slice of columns, a concatenation of two or of six pieces along the columns, a pointwise sum, product, difference, maximum or
  minimum, a pointwise function, a change of float format (the identity on extended reals), the addition of one bias
  row to every row, and a splat constant.  The logistic function of the vector unit is related to the quotient
  1 / (1 + exp (−y)) the host computes, because at the ideal values it is that quotient by definition.  Any extents.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.LibRowRel

open Idealize.ShloMosaic Idealize.ShloMosaic.ValueIdx

variable {M M' : Nat}

/-- Row p of x is row ρ p of y. The left matrix may be in any float format; the right one is in f32 (a host array). -/
def Rel (ρ : Fin M → Fin M') {N : Nat} {φ : FTy} (x : FVec Ideal ⟨2, ![M, N]⟩ φ) (y : FVec Ideal ⟨2, ![M', N]⟩ .f32) : Prop :=
  ∀ (p : Fin M) (j : Fin N), (x (ix2 p j) : EReal) = y (ix2 (ρ p) j)

variable {ρ : Fin M → Fin M'}

/-- Columns o … o + n − 1 of related matrices are related. -/
theorem Rel.slice {N n : Nat} {φ : FTy} {x : FVec Ideal ⟨2, ![M, N]⟩ φ} {y : FVec Ideal ⟨2, ![M', N]⟩ .f32} (h : Rel ρ x y) (o : Nat)
    (hx : (⟨2, ![M, N]⟩ : Shape).Slices ![0, o] ⟨2, ![M, n]⟩) (hy : (⟨2, ![M', N]⟩ : Shape).Slices ![0, o] ⟨2, ![M', n]⟩) :
    Rel ρ (φ := φ) (extractStridedSlice ⟨2, ![M, n]⟩ ![0, o] x hx) (extractStridedSlice ⟨2, ![M', n]⟩ ![0, o] y hy) := fun p j => by
  rw [slice2_axis1_eq o x hx p j, slice2_axis1_eq o y hy (ρ p) j]
  exact h p _

/-- Two related pairs laid side by side are related. -/
theorem Rel.concat2 {a b c : Nat} {φ : FTy} {x₁ : FVec Ideal ⟨2, ![M, a]⟩ φ} {x₂ : FVec Ideal ⟨2, ![M, b]⟩ φ}
    {y₁ : FVec Ideal ⟨2, ![M', a]⟩ .f32} {y₂ : FVec Ideal ⟨2, ![M', b]⟩ .f32} (h₁ : Rel ρ x₁ y₁) (h₂ : Rel ρ x₂ y₂)
    (hx : Shape.Concatenates [⟨2, ![M, a]⟩, ⟨2, ![M, b]⟩] ⟨2, ![M, c]⟩ 1)
    (hy : Shape.Concatenates [⟨2, ![M', a]⟩, ⟨2, ![M', b]⟩] ⟨2, ![M', c]⟩ 1) :
    Rel ρ (φ := φ) (concatenate ⟨2, ![M, c]⟩ 1 [⟨⟨2, ![M, a]⟩, x₁⟩, ⟨⟨2, ![M, b]⟩, x₂⟩] hx)
      (concatenate ⟨2, ![M', c]⟩ 1 [⟨⟨2, ![M', a]⟩, y₁⟩, ⟨⟨2, ![M', b]⟩, y₂⟩] hy) := fun p j => by
  by_cases hj : j.val < a
  · rw [concatenate_pair_apply_left 1 x₁ x₂ hx (ix2 p j) rfl (ix2 p ⟨j.val, hj⟩)
          (fun d => by match d with | ⟨0, _⟩ => rfl | ⟨1, _⟩ => rfl),
        concatenate_pair_apply_left 1 y₁ y₂ hy (ix2 (ρ p) j) rfl (ix2 (ρ p) ⟨j.val, hj⟩)
          (fun d => by match d with | ⟨0, _⟩ => rfl | ⟨1, _⟩ => rfl)]
    exact h₁ p _
  · have hc : a + (b + 0) = c := hx.2.2
    have hj' : j.val - a < b := by have := j.isLt; omega
    rw [concatenate_pair_apply_right 1 x₁ x₂ hx (ix2 p j) rfl rfl (ix2 p ⟨j.val - a, hj'⟩)
          (fun d hd => by match d with | ⟨0, _⟩ => rfl | ⟨1, _⟩ => exact absurd rfl hd)
          (by show j.val - a + a = j.val; omega),
        concatenate_pair_apply_right 1 y₁ y₂ hy (ix2 (ρ p) j) rfl rfl (ix2 (ρ p) ⟨j.val - a, hj'⟩)
          (fun d hd => by match d with | ⟨0, _⟩ => rfl | ⟨1, _⟩ => exact absurd rfl hd)
          (by show j.val - a + a = j.val; omega)]
    exact h₂ p _

section Pointwise
variable {N : Nat} {φ : FTy} {x x' : FVec Ideal ⟨2, ![M, N]⟩ φ} {y y' : FVec Ideal ⟨2, ![M', N]⟩ .f32}

theorem Rel.addf (h : Rel ρ x y) (h' : Rel ρ x' y') : Rel ρ (addf x x') (addf y y') := fun p j => by
  show (x (ix2 p j) : EReal) + x' (ix2 p j) = y (ix2 (ρ p) j) + y' (ix2 (ρ p) j)
  rw [h p j, h' p j]

theorem Rel.mulf (h : Rel ρ x y) (h' : Rel ρ x' y') : Rel ρ (mulf x x') (mulf y y') := fun p j => by
  show (x (ix2 p j) : EReal) * x' (ix2 p j) = y (ix2 (ρ p) j) * y' (ix2 (ρ p) j)
  rw [h p j, h' p j]

theorem Rel.subf (h : Rel ρ x y) (h' : Rel ρ x' y') : Rel ρ (subf x x') (subf y y') := fun p j => by
  show (x (ix2 p j) : EReal) - x' (ix2 p j) = y (ix2 (ρ p) j) - y' (ix2 (ρ p) j)
  rw [h p j, h' p j]

theorem Rel.maximumf (h : Rel ρ x y) (h' : Rel ρ x' y') : Rel ρ (maximumf x x') (maximumf y y') := fun p j => by
  show max (x (ix2 p j) : EReal) (x' (ix2 p j)) = max (y (ix2 (ρ p) j)) (y' (ix2 (ρ p) j))
  rw [h p j, h' p j]

theorem Rel.minimumf (h : Rel ρ x y) (h' : Rel ρ x' y') : Rel ρ (minimumf x x') (minimumf y y') := fun p j => by
  show min (x (ix2 p j) : EReal) (x' (ix2 p j)) = min (y (ix2 (ρ p) j)) (y' (ix2 (ρ p) j))
  rw [h p j, h' p j]

/-- Sums of three related terms are related however they are grouped: addition of extended reals is associative. -/
theorem Rel.addf_assoc {x'' : FVec Ideal ⟨2, ![M, N]⟩ φ} {y'' : FVec Ideal ⟨2, ![M', N]⟩ .f32}
    (h : Rel ρ x y) (h' : Rel ρ x' y') (h'' : Rel ρ x'' y'') :
    Rel ρ (Idealize.ShloMosaic.addf x (Idealize.ShloMosaic.addf x' x'')) (Idealize.ShloMosaic.addf (Idealize.ShloMosaic.addf y y') y'') := fun p j => by
  show (x (ix2 p j) : EReal) + (x' (ix2 p j) + x'' (ix2 p j)) = y (ix2 (ρ p) j) + y' (ix2 (ρ p) j) + y'' (ix2 (ρ p) j)
  rw [h p j, h' p j, h'' p j, add_assoc]

/-- The vector unit's hyperbolic tangent and the host's are one function of an extended real. -/
theorem Rel.tanh (h : Rel ρ x y) : Rel ρ (tanh x) (Host.tanh y) := fun p j => by
  show Ideal.tanh (x (ix2 p j)) = Ideal.tanh (y (ix2 (ρ p) j))
  rw [h p j]

/-- The vector unit's exponential and the host's are one function of an extended real. -/
theorem Rel.exp (h : Rel ρ x y) : Rel ρ (exp x) (Host.exp y) := fun p j => by
  show Ideal.exp (x (ix2 p j)) = Ideal.exp (y (ix2 (ρ p) j))
  rw [h p j]

/-- A change of float format on the left is the identity on extended reals. -/
theorem Rel.truncf_left {φ' : FTy} (hb : φ'.bits < φ.bits) (h : Rel ρ x y) : Rel ρ (truncf φ' x hb) y := fun p j => h p j

end Pointwise

/-- A broadcast scalar constant read anywhere is the value of its word. -/
theorem splat_apply {t : Shape} (φ : FTy) (w : BitVec φ.bits) (hb : (⟨0, ![]⟩ : Shape).BroadcastsInDim t ![]) (i : t.Idx) :
    broadcastInDim t ![] hb (constant (F := Ideal) ⟨0, ![]⟩ φ w) i = Ideal.ofBits φ w :=
  broadcastInDim_apply ![] hb _ i ix0 (fun a => a.elim0)

/-- The vector unit's splat of a scalar literal and the host's broadcast of the same word are related. -/
theorem Rel.splat {N : Nat} (w : BitVec 32) (hb : (⟨0, ![]⟩ : Shape).BroadcastsInDim ⟨2, ![M', N]⟩ ![]) :
    Rel ρ (φ := .f32) (broadcast ⟨2, ![M, N]⟩ (Scalar.ofBits (F := Ideal) .f32 w))
      (broadcastInDim ⟨2, ![M', N]⟩ ![] hb (constant (F := Ideal) ⟨0, ![]⟩ .f32 w)) := fun p j => by
  rw [splat_apply]; rfl

/-- The vector unit's logistic function is, at the ideal values, the quotient 1 / (1 + exp (−y)) the host spells out
    with the word of 1.0. -/
theorem Rel.logistic {N : Nat} {x : FVec Ideal ⟨2, ![M, N]⟩ .f32} {y : FVec Ideal ⟨2, ![M', N]⟩ .f32} (h : Rel ρ x y)
    (hb hb' : (⟨0, ![]⟩ : Shape).BroadcastsInDim ⟨2, ![M', N]⟩ ![]) :
    Rel ρ (logistic x)
      (Host.divf (broadcastInDim ⟨2, ![M', N]⟩ ![] hb (constant (F := Ideal) ⟨0, ![]⟩ .f32 0x3F800000#32))
        (Idealize.ShloMosaic.addf (broadcastInDim ⟨2, ![M', N]⟩ ![] hb' (constant (F := Ideal) ⟨0, ![]⟩ .f32 0x3F800000#32))
          (Host.exp (Host.negf y)))) := fun p j => by
  show Ideal.logistic (x (ix2 p j))
    = Ideal.div (broadcastInDim ⟨2, ![M', N]⟩ ![] hb (constant (F := Ideal) ⟨0, ![]⟩ .f32 0x3F800000#32) (ix2 (ρ p) j))
        (broadcastInDim ⟨2, ![M', N]⟩ ![] hb' (constant (F := Ideal) ⟨0, ![]⟩ .f32 0x3F800000#32) (ix2 (ρ p) j)
          + Ideal.exp (-(y (ix2 (ρ p) j))))
  rw [splat_apply, Ideal.ofBits_one_f32, h p j]
  rfl

/-- One bias row added to every row: the vector unit broadcasts the row, the host broadcasts it in the two dimensions. -/
theorem Rel.biasRow {N : Nat} {φ : FTy} {b : FVec Ideal ⟨2, ![1, N]⟩ φ} {b' : FVec Ideal ⟨2, ![1, N]⟩ .f32}
    (h : ∀ i, (b i : EReal) = b' i)
    (hb : (⟨2, ![1, N]⟩ : Shape).Broadcasts ⟨2, ![M, N]⟩) (hb' : (⟨2, ![1, N]⟩ : Shape).BroadcastsInDim ⟨2, ![M', N]⟩ ![0, 1]) :
    Rel ρ (φ := φ) (broadcastTo ⟨2, ![M, N]⟩ b hb) (broadcastInDim ⟨2, ![M', N]⟩ ![0, 1] hb' b') := fun p j => by
  rw [broadcastTo_1b_ab_apply b hb p j,
    broadcastInDim_apply ![0, 1] hb' b' (ix2 (ρ p) j) (ix2 (0 : Fin 1) j) (fun a => by
      match a with
      | ⟨0, _⟩ => show (0 : Nat) = if (1 : Nat) = 1 then 0 else _; rw [if_pos rfl]
      | ⟨1, _⟩ =>
        show j.val = if N = 1 then 0 else j.val
        split
        · have := j.isLt; omega
        · rfl)]
  exact h _

/-- Six related pieces laid side by side are related: an entry of the joined matrix comes from the piece whose span of
    columns holds its column, at the same row and at the column less the extents of the pieces before it. -/
theorem Rel.concat6 {a1 a2 a3 a4 a5 a6 c : Nat} {φ : FTy}
    {x1 : FVec Ideal ⟨2, ![M, a1]⟩ φ} {x2 : FVec Ideal ⟨2, ![M, a2]⟩ φ} {x3 : FVec Ideal ⟨2, ![M, a3]⟩ φ}
    {x4 : FVec Ideal ⟨2, ![M, a4]⟩ φ} {x5 : FVec Ideal ⟨2, ![M, a5]⟩ φ} {x6 : FVec Ideal ⟨2, ![M, a6]⟩ φ}
    {y1 : FVec Ideal ⟨2, ![M', a1]⟩ .f32} {y2 : FVec Ideal ⟨2, ![M', a2]⟩ .f32} {y3 : FVec Ideal ⟨2, ![M', a3]⟩ .f32}
    {y4 : FVec Ideal ⟨2, ![M', a4]⟩ .f32} {y5 : FVec Ideal ⟨2, ![M', a5]⟩ .f32} {y6 : FVec Ideal ⟨2, ![M', a6]⟩ .f32}
    (h1 : Rel ρ x1 y1) (h2 : Rel ρ x2 y2) (h3 : Rel ρ x3 y3) (h4 : Rel ρ x4 y4) (h5 : Rel ρ x5 y5) (h6 : Rel ρ x6 y6)
    (hx : Shape.Concatenates [⟨2, ![M, a1]⟩, ⟨2, ![M, a2]⟩, ⟨2, ![M, a3]⟩, ⟨2, ![M, a4]⟩, ⟨2, ![M, a5]⟩, ⟨2, ![M, a6]⟩] ⟨2, ![M, c]⟩ 1)
    (hy : Shape.Concatenates [⟨2, ![M', a1]⟩, ⟨2, ![M', a2]⟩, ⟨2, ![M', a3]⟩, ⟨2, ![M', a4]⟩, ⟨2, ![M', a5]⟩, ⟨2, ![M', a6]⟩] ⟨2, ![M', c]⟩ 1) :
    Rel ρ (φ := φ)
      (concatenate ⟨2, ![M, c]⟩ 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx)
      (concatenate ⟨2, ![M', c]⟩ 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy) := fun p j => by
  have hc : a1 + (a2 + (a3 + (a4 + (a5 + (a6 + 0))))) = c := hx.2.2
  have hjc := j.isLt
  -- the piece that holds column j, from the left
  by_cases c1 : j.val < a1
  · rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 0 (by show (0 : Nat) < 6; decide) _ x1 rfl rfl 0 rfl (ix2 p ⟨j.val, c1⟩)
          (fun d hd => by match d with | ⟨0, _⟩ => rfl | ⟨1, _⟩ => exact absurd rfl hd) (by show 0 + j.val = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 0 (by show (0 : Nat) < 6; decide) _ y1 rfl rfl 0 rfl (ix2 (ρ p) ⟨j.val, c1⟩)
          (fun d hd => by match d with | ⟨0, _⟩ => rfl | ⟨1, _⟩ => exact absurd rfl hd) (by show 0 + j.val = j.val; omega)]
    exact h1 p _
  by_cases c2 : j.val < a1 + a2
  · have hb : j.val - a1 < a2 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 1 (by show (1 : Nat) < 6; decide) _ x2 rfl rfl (a1 + 0) rfl (ix2 p ⟨j.val - a1, hb⟩)
          (fun d hd => by match d with | ⟨0, _⟩ => rfl | ⟨1, _⟩ => exact absurd rfl hd) (by show a1 + 0 + (j.val - a1) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 1 (by show (1 : Nat) < 6; decide) _ y2 rfl rfl (a1 + 0) rfl (ix2 (ρ p) ⟨j.val - a1, hb⟩)
          (fun d hd => by match d with | ⟨0, _⟩ => rfl | ⟨1, _⟩ => exact absurd rfl hd) (by show a1 + 0 + (j.val - a1) = j.val; omega)]
    exact h2 p _
  by_cases c3 : j.val < a1 + a2 + a3
  · have hb : j.val - (a1 + a2) < a3 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 2 (by show (2 : Nat) < 6; decide) _ x3 rfl rfl (a1 + (a2 + 0)) rfl (ix2 p ⟨j.val - (a1 + a2), hb⟩)
          (fun d hd => by match d with | ⟨0, _⟩ => rfl | ⟨1, _⟩ => exact absurd rfl hd) (by show a1 + (a2 + 0) + (j.val - (a1 + a2)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 2 (by show (2 : Nat) < 6; decide) _ y3 rfl rfl (a1 + (a2 + 0)) rfl (ix2 (ρ p) ⟨j.val - (a1 + a2), hb⟩)
          (fun d hd => by match d with | ⟨0, _⟩ => rfl | ⟨1, _⟩ => exact absurd rfl hd) (by show a1 + (a2 + 0) + (j.val - (a1 + a2)) = j.val; omega)]
    exact h3 p _
  by_cases c4 : j.val < a1 + a2 + a3 + a4
  · have hb : j.val - (a1 + a2 + a3) < a4 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 3 (by show (3 : Nat) < 6; decide) _ x4 rfl rfl (a1 + (a2 + (a3 + 0))) rfl (ix2 p ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 3 (by show (3 : Nat) < 6; decide) _ y4 rfl rfl (a1 + (a2 + (a3 + 0))) rfl (ix2 (ρ p) ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega)]
    exact h4 p _
  by_cases c5 : j.val < a1 + a2 + a3 + a4 + a5
  · have hb : j.val - (a1 + a2 + a3 + a4) < a5 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 4 (by show (4 : Nat) < 6; decide) _ x5 rfl rfl (a1 + (a2 + (a3 + (a4 + 0)))) rfl (ix2 p ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 4 (by show (4 : Nat) < 6; decide) _ y5 rfl rfl (a1 + (a2 + (a3 + (a4 + 0)))) rfl (ix2 (ρ p) ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega)]
    exact h5 p _
  · have hb : j.val - (a1 + a2 + a3 + a4 + a5) < a6 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 5 (by show (5 : Nat) < 6; decide) _ x6 rfl rfl (a1 + (a2 + (a3 + (a4 + (a5 + 0))))) rfl (ix2 p ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 5 (by show (5 : Nat) < 6; decide) _ y6 rfl rfl (a1 + (a2 + (a3 + (a4 + (a5 + 0))))) rfl (ix2 (ρ p) ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega)]
    exact h6 p _

end Cert.LibRowRel

end
-- ==== Proof.LibRowDot.lean ====
/-
  A matrix product keeps rows related.

  If row p of l is row ρ p of l', and the right operands agree entry by entry, then row p of the vector unit's product
  l · w into the zero accumulator is row ρ p of the host's product l' · w': at the ideal values both are the plain sums
  Σ_k l[p,k] · w[k,q].  The dimension numbers enter through six facts (one contraction axis of extent K; where an output
  index and a contraction index go in each operand), collected in one record.  Any extents.
-/
import proofs.«108121_j79963701117029_1_alg».proof.Proof.LibDotAt
import proofs.«108121_j79963701117029_1_alg».proof.Proof.LibRowRel

noncomputable section

namespace Cert.LibRowRel

open Idealize.ShloMosaic Idealize.ShloMosaic.ValueIdx

/-- Dimension numbers of a plain M×K by K×N product: the second axis of the left operand is contracted with the first of the
    right one, nothing is batched. -/
structure Plain {M K N : Nat} (D : DotDims ⟨2, ![M, K]⟩ ⟨2, ![K, N]⟩ ⟨2, ![M, N]⟩) : Prop where
  rank : D.contr.rank = 1
  size : D.contr.size ⟨0, by omega⟩ = K
  l0 : ∀ (j : (⟨2, ![M, N]⟩ : Shape).Idx) (c : D.contr.Idx), (D.lhsIdx j c 0).val = (j 0).val
  l1 : ∀ (j : (⟨2, ![M, N]⟩ : Shape).Idx) (c : D.contr.Idx), (D.lhsIdx j c 1).val = (c ⟨0, by omega⟩).val
  r0 : ∀ (j : (⟨2, ![M, N]⟩ : Shape).Idx) (c : D.contr.Idx), (D.rhsIdx j c 0).val = (c ⟨0, by omega⟩).val
  r1 : ∀ (j : (⟨2, ![M, N]⟩ : Shape).Idx) (c : D.contr.Idx), (D.rhsIdx j c 1).val = (j 1).val

variable {M M' : Nat} {ρ : Fin M → Fin M'}

/-- Products of related left operands with equal right operands are related. -/
theorem Rel.matmul {K N : Nat} {φ₁ φ₂ : FTy}
    {D : DotDims ⟨2, ![M, K]⟩ ⟨2, ![K, N]⟩ ⟨2, ![M, N]⟩} {D' : DotDims ⟨2, ![M', K]⟩ ⟨2, ![K, N]⟩ ⟨2, ![M', N]⟩}
    (hD : Plain D) (hD' : Plain D')
    {l : FVec Ideal ⟨2, ![M, K]⟩ φ₁} {l' : FVec Ideal ⟨2, ![M', K]⟩ .f32}
    {w : FVec Ideal ⟨2, ![K, N]⟩ φ₂} {w' : FVec Ideal ⟨2, ![K, N]⟩ .f32}
    (hl : Rel ρ l l') (hw : ∀ i, (w i : EReal) = w' i) (prec prec' : Option ContractPrecision) :
    Rel ρ (φ := .f32) (matmul D prec l w (constant (F := Ideal) ⟨2, ![M, N]⟩ .f32 0x00000000#32))
      (Host.dotGeneral D' prec' l' w') := fun p j => by
  show FloatOps.matmul D prec l w (constant (F := Ideal) ⟨2, ![M, N]⟩ .f32 0x00000000#32) (ix2 p j)
    = FloatOps.dotGeneral D' prec' .single l' w' (ix2 (ρ p) j)
  rw [Cert.LibDotAt.matmul_zero_ix2 D hD.rank hD.size hD.l0 hD.l1 hD.r0 hD.r1,
    Cert.LibDotAt.dotGeneral_ix2 D' hD'.rank hD'.size hD'.l0 hD'.l1 hD'.r0 hD'.r1]
  refine Finset.sum_congr rfl fun k _ => ?_
  rw [hl p k, hw (ix2 k j)]

/-- A cast of a vector to its own shape changes nothing. -/
theorem castSelf {s : Shape} {φ : FTy} {x : FVec Ideal s φ} {y : FVec Ideal s .f32} (h : ∀ i, (x i : EReal) = y i)
    (hs : s.ShapeCasts s) : ∀ i, (shapeCast s x hs i : EReal) = y i := by
  rw [shapeCast_self]; exact h

end Cert.LibRowRel

end
-- ==== Proof.Dots.lean ====
/-
  The six matrix products are plain ones.

  Each of the three regions multiplies a block of rows by a whole weight matrix, and the reference multiplies all the rows at
  once; in all six sets of dimension numbers the second axis of the left operand is contracted with the first axis of the right
  operand and nothing is batched.  So an output entry (p, q) reads row p of the left operand and column q of the right one,
  and the contraction position is the one summation coordinate.
-/
import proofs.«108121_j79963701117029_1_alg».proof.Proof.Gen.KernelIdeal
import proofs.«108121_j79963701117029_1_alg».proof.Proof.Gen.ReferenceIdeal
import proofs.«108121_j79963701117029_1_alg».proof.Proof.LibRowDot

noncomputable section

namespace Cert.Dots

open Idealize.ShloMosaic Cert.LibRowRel

/-- The first region's product of a 5000 × 128 block with the 128 × 16 weights. -/
theorem k1 : Plain Cert.KernelIdeal.dot_S5000x128_S128x16_S5000x16_1_0_0_1_n_n where
  rank := rfl
  size := rfl
  l0 j c := by simp [DotDims.lhsIdx, Cert.KernelIdeal.dot_S5000x128_S128x16_S5000x16_1_0_0_1_n_n]; rfl
  l1 j c := by simp [DotDims.lhsIdx, Cert.KernelIdeal.dot_S5000x128_S128x16_S5000x16_1_0_0_1_n_n]; rfl
  r0 j c := by simp [DotDims.rhsIdx, Cert.KernelIdeal.dot_S5000x128_S128x16_S5000x16_1_0_0_1_n_n]; rfl
  r1 j c := by simp [DotDims.rhsIdx, Cert.KernelIdeal.dot_S5000x128_S128x16_S5000x16_1_0_0_1_n_n]; rfl

/-- The second region's product of a 5000 × 16 block with the 16 × 32 weights. -/
theorem k2 : Plain Cert.KernelIdeal.dot_S5000x16_S16x32_S5000x32_1_0_0_1_n_n where
  rank := rfl
  size := rfl
  l0 j c := by simp [DotDims.lhsIdx, Cert.KernelIdeal.dot_S5000x16_S16x32_S5000x32_1_0_0_1_n_n]; rfl
  l1 j c := by simp [DotDims.lhsIdx, Cert.KernelIdeal.dot_S5000x16_S16x32_S5000x32_1_0_0_1_n_n]; rfl
  r0 j c := by simp [DotDims.rhsIdx, Cert.KernelIdeal.dot_S5000x16_S16x32_S5000x32_1_0_0_1_n_n]; rfl
  r1 j c := by simp [DotDims.rhsIdx, Cert.KernelIdeal.dot_S5000x16_S16x32_S5000x32_1_0_0_1_n_n]; rfl

/-- The third region's product of a 20000 × 64 block with the 64 × 1 weight column. -/
theorem k3 : Plain Cert.KernelIdeal.dot_S20000x64_S64x1_S20000x1_1_0_0_1_n_n where
  rank := rfl
  size := rfl
  l0 j c := by simp [DotDims.lhsIdx, Cert.KernelIdeal.dot_S20000x64_S64x1_S20000x1_1_0_0_1_n_n]; rfl
  l1 j c := by simp [DotDims.lhsIdx, Cert.KernelIdeal.dot_S20000x64_S64x1_S20000x1_1_0_0_1_n_n]; rfl
  r0 j c := by simp [DotDims.rhsIdx, Cert.KernelIdeal.dot_S20000x64_S64x1_S20000x1_1_0_0_1_n_n]; rfl
  r1 j c := by
    simp [DotDims.rhsIdx, Cert.KernelIdeal.dot_S20000x64_S64x1_S20000x1_1_0_0_1_n_n]
    have h : (j 1).val < 1 := (j 1).isLt
    omega

/-- The reference's first product, all 100000 rows at once. -/
theorem r1 : Plain Cert.ReferenceIdeal.dot_S100000x128_S128x16_S100000x16_1_0_0_1_n_n where
  rank := rfl
  size := rfl
  l0 j c := by simp [DotDims.lhsIdx, Cert.ReferenceIdeal.dot_S100000x128_S128x16_S100000x16_1_0_0_1_n_n]; rfl
  l1 j c := by simp [DotDims.lhsIdx, Cert.ReferenceIdeal.dot_S100000x128_S128x16_S100000x16_1_0_0_1_n_n]; rfl
  r0 j c := by simp [DotDims.rhsIdx, Cert.ReferenceIdeal.dot_S100000x128_S128x16_S100000x16_1_0_0_1_n_n]; rfl
  r1 j c := by simp [DotDims.rhsIdx, Cert.ReferenceIdeal.dot_S100000x128_S128x16_S100000x16_1_0_0_1_n_n]; rfl

/-- The reference's second product, all 100000 rows at once. -/
theorem r2 : Plain Cert.ReferenceIdeal.dot_S100000x16_S16x32_S100000x32_1_0_0_1_n_n where
  rank := rfl
  size := rfl
  l0 j c := by simp [DotDims.lhsIdx, Cert.ReferenceIdeal.dot_S100000x16_S16x32_S100000x32_1_0_0_1_n_n]; rfl
  l1 j c := by simp [DotDims.lhsIdx, Cert.ReferenceIdeal.dot_S100000x16_S16x32_S100000x32_1_0_0_1_n_n]; rfl
  r0 j c := by simp [DotDims.rhsIdx, Cert.ReferenceIdeal.dot_S100000x16_S16x32_S100000x32_1_0_0_1_n_n]; rfl
  r1 j c := by simp [DotDims.rhsIdx, Cert.ReferenceIdeal.dot_S100000x16_S16x32_S100000x32_1_0_0_1_n_n]; rfl

/-- The reference's third product, all 500000 rows at once. -/
theorem r3 : Plain Cert.ReferenceIdeal.dot_S500000x64_S64x1_S500000x1_1_0_0_1_n_n where
  rank := rfl
  size := rfl
  l0 j c := by simp [DotDims.lhsIdx, Cert.ReferenceIdeal.dot_S500000x64_S64x1_S500000x1_1_0_0_1_n_n]; rfl
  l1 j c := by simp [DotDims.lhsIdx, Cert.ReferenceIdeal.dot_S500000x64_S64x1_S500000x1_1_0_0_1_n_n]; rfl
  r0 j c := by simp [DotDims.rhsIdx, Cert.ReferenceIdeal.dot_S500000x64_S64x1_S500000x1_1_0_0_1_n_n]; rfl
  r1 j c := by
    simp [DotDims.rhsIdx, Cert.ReferenceIdeal.dot_S500000x64_S64x1_S500000x1_1_0_0_1_n_n]
    have h : (j 1).val < 1 := (j 1).isLt
    omega

end Cert.Dots

end
-- ==== Proof.RegionFirst.lean ====
/-
  The first region: the node features times the first weight matrix, 5000 rows per grid point.

  Point t of the 20 fetches rows 5000 t … 5000 t + 4999 of the features and the whole 128 × 16 weights, multiplies them (the change of
  float format before the product is the identity on extended reals, and the product into a zero accumulator is the plain sum
  over the 128 contraction positions) and writes the 5000 × 16 block back at the same rows.  The blocks tile the result, so after
  the region the result array is the product of the whole feature array with the weights — the same sums the host's contraction
  of all 100000 rows at once computes.
-/
import proofs.«108121_j79963701117029_1_alg».proof.Proof.Gen.KernelIdeal.Frame
import proofs.«108121_j79963701117029_1_alg».proof.Proof.Dots
import proofs.«108121_j79963701117029_1_alg».proof.Proof.Glue
import Idealize.ShloMosaic.Lib.Pipeline.Value

set_option maxRecDepth 16384

noncomputable section

namespace Cert.KernelIdeal.First

open Idealize.ShloMosaic Idealize.ShloMosaic.TcCoe Idealize.SL.Sem Idealize.ShloMosaic.ValueIdx
open Idealize.ShloMosaic.Pipeline (Dat)
open Cert.KernelIdeal Cert.KernelIdeal.Gen Cert.LibRowRel

-- the buffers' contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The blocks over the grid: point t takes block t of the rows and of the result; every other operand is one whole block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row p of point t's block is row 5000 t + p of the array. -/
def rowAt (t : Fin cfg0.N) (p : Fin 5000) : Fin 100000 :=
  ⟨5000 * t.val + p.val, by have h : cfg0.N = 20 := N_0; have ht := t.isLt; have hp := p.isLt; omega⟩

/-- The body's result on a block whose rows are rows of X, with weights equal to W: its rows are the same rows of
    the product X · W — both sides are the sums Σ_k x[p,k] · w[k,q]. -/
theorem pay_rel {ρ : Fin 5000 → Fin 100000} (x0 : Vec Ideal S5000x128 .f32) (x1 : Vec Ideal S128x16 .f32)
    (X : FVec Ideal S100000x128 .f32) (W : FVec Ideal S128x16 .f32)
    (h0 : Rel ρ (φ := .f32) x0 X) (h1 : ∀ i, (x1 i : EReal) = W i) :
    Rel ρ (φ := .f32) (k0_pay1 x0 x1) (Host.dotGeneral Cert.ReferenceIdeal.dot_S100000x128_S128x16_S100000x16_1_0_0_1_n_n none X W) := by
  unfold k0_pay1
  exact Rel.matmul Cert.Dots.k1 Cert.Dots.r1 (Rel.truncf_left _ h0) h1 none none

/-- Point t's block of the rows is rows 5000 t … of the array. -/
theorem rows_rel (c : Dev nD) (t : Fin cfg0.N) :
    Rel (rowAt t) (φ := .f32) (iblk0 V c 0 t : Vec Ideal S5000x128 .f32) (V c main_arg0 : FVec Ideal S100000x128 .f32) := fun p j => by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * j.val = j.val; rw [e1]; omega

/-- The weights' block is the whole weight array at every point. -/
theorem weights_eq (c : Dev nD) (t : Fin cfg0.N) (i : S128x16.Idx) :
    ((iblk0 V c 1 t : Vec Ideal S128x16 .f32) i : EReal) = (V c main_arg3 : FVec Ideal S128x16 .f32) i := by
  obtain ⟨-, -, e2, e3, -, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * (i 0).val = (i 0).val; rw [e2]; omega
  | ⟨1, _⟩ => show win0_1.index t (1 : Fin 2) * 16 + 1 * (i 1).val = (i 1).val; rw [e3]; omega

/-- What point t writes back is block t of the product of the whole arrays as the region finds them. -/
theorem flushed_eq (c : Dev nD) (t : Fin cfg0.N) :
    (dat0 V c).flushed 2 t = ((cfg0.win 2).blk t).view.read (Elt Ideal)
      (Host.dotGeneral (φ₁ := .f32) (φ₂ := .f32) Cert.ReferenceIdeal.dot_S100000x128_S128x16_S100000x16_1_0_0_1_n_n none (V c main_arg0 : FVec Ideal S100000x128 .f32) (V c main_arg3 : FVec Ideal S128x16 .f32) : FVec Ideal S100000x16 .f32) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x16) hz]
  obtain ⟨-, -, -, -, e4, e5⟩ := idx_facts t
  funext y
  obtain ⟨p, q, rfl⟩ : ∃ (p : Fin 5000) (q : Fin 16), y = ix2 p q := ⟨y 0, y 1, eq_ix2 y⟩
  have hemb : ((cfg0.win 2).blk t).view.emb (ix2 p q) = (ix2 (rowAt t p) q : S100000x16.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 16 + 1 * q.val = q.val; rw [e5]; omega
  rw [View.read_apply, hemb]
  exact pay_rel (ρ := rowAt t) _ _ _ _ (rows_rel V c t) (weights_eq V c t) p q

/-- An index of the result array is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v7).slice (win0_2.rect t)).set ↔ _
  rw [View.set_slice_whole, Rect.mem_set_unit]
  exact Iff.rfl

/-- Every row of the result array is in some point's block: row r in the block of point r / 5000. -/
theorem cover (i : S100000x16.Idx) : ∃ t : Fin cfg0.N, (cfg0.win 2).flush t = true ∧ i ∈ ((cfg0.win 2).blk t).view.set := by
  have hN : cfg0.N = 20 := N_0
  have h0 : (i 0).val < 100000 := (i 0).isLt
  have h1 : (i 1).val < 16 := (i 1).isLt
  obtain ⟨t, ht⟩ : ∃ t : Fin cfg0.N, t.val = (i 0).val / 5000 := ⟨⟨(i 0).val / 5000, by omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 16 ≤ (i 1).val ∧ (i 1).val < win0_2.index t (1 : Fin 2) * 16 + 16; rw [e5]; omega

/-- The result array after the region: the product of the arrays as the region finds them, all rows at once. -/
theorem final (c : Dev nD) :
    (dat0 V c).arrAt 2 cfg0.N = (Host.dotGeneral (φ₁ := .f32) (φ₂ := .f32) Cert.ReferenceIdeal.dot_S100000x128_S128x16_S100000x16_1_0_0_1_n_n none (V c main_arg0 : FVec Ideal S100000x128 .f32) (V c main_arg3 : FVec Ideal S128x16 .f32) : FVec Ideal S100000x16 .f32) :=
  (dat0 V c).arrAt_eq_of_cover 2 _ (fun t _ => flushed_eq V c t) cover

end Cert.KernelIdeal.First

end
-- ==== Proof.RegionSecond.lean ====
/-
  The second region: the hidden features times the second weight matrix, 5000 rows per grid point.

  Point t of the 20 fetches rows 5000 t … 5000 t + 4999 of the hidden features and the whole 16 × 32 weights, multiplies them (a cast
  to the same shape and the change of float format are the identity; the product into a zero accumulator is the plain sum over
  the 16 contraction positions) and writes the 5000 × 32 block back at the same rows.  The blocks tile the result, so after the
  region the result array is the product of the whole hidden array with the weights, as the host's contraction computes it.
-/
import proofs.«108121_j79963701117029_1_alg».proof.Proof.Gen.KernelIdeal.Frame
import proofs.«108121_j79963701117029_1_alg».proof.Proof.Dots
import proofs.«108121_j79963701117029_1_alg».proof.Proof.Glue
import Idealize.ShloMosaic.Lib.Pipeline.Value

set_option maxRecDepth 16384

noncomputable section

namespace Cert.KernelIdeal.Second

open Idealize.ShloMosaic Idealize.ShloMosaic.TcCoe Idealize.SL.Sem Idealize.ShloMosaic.ValueIdx
open Idealize.ShloMosaic.Pipeline (Dat)
open Cert.KernelIdeal Cert.KernelIdeal.Gen Cert.LibRowRel

-- the buffers' contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The blocks over the grid: point t takes block t of the rows and of the result; every other operand is one whole block. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Row p of point t's block is row 5000 t + p of the array. -/
def rowAt (t : Fin cfg1.N) (p : Fin 5000) : Fin 100000 :=
  ⟨5000 * t.val + p.val, by have h : cfg1.N = 20 := N_1; have ht := t.isLt; have hp := p.isLt; omega⟩

/-- The body's result on a block whose rows are rows of X, with weights equal to W: its rows are the same rows of
    the product X · W — both sides are the sums Σ_k x[p,k] · w[k,q]. -/
theorem pay_rel {ρ : Fin 5000 → Fin 100000} (x0 : Vec Ideal S5000x16 .f32) (x1 : Vec Ideal S16x32 .f32)
    (X : FVec Ideal S100000x16 .f32) (W : FVec Ideal S16x32 .f32)
    (h0 : Rel ρ (φ := .f32) x0 X) (h1 : ∀ i, (x1 i : EReal) = W i) :
    Rel ρ (φ := .f32) (k1_pay1 x0 x1) (Host.dotGeneral Cert.ReferenceIdeal.dot_S100000x16_S16x32_S100000x32_1_0_0_1_n_n none X W) := by
  simp only [k1_pay1, shapeCast_self]
  exact Rel.matmul Cert.Dots.k2 Cert.Dots.r2 (Rel.truncf_left _ h0) h1 none none

/-- Point t's block of the rows is rows 5000 t … of the array. -/
theorem rows_rel (c : Dev nD) (t : Fin cfg1.N) :
    Rel (rowAt t) (φ := .f32) (iblk1 V c 0 t : Vec Ideal S5000x16 .f32) (V c main_v49 : FVec Ideal S100000x16 .f32) := fun p j => by
  obtain ⟨e0, e1, -, -, -, -⟩ := idx_facts t
  unfold iblk1
  rw [View.read_apply]
  show V c main_v49 _ = V c main_v49 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 16 + 1 * j.val = j.val; rw [e1]; omega

/-- The weights' block is the whole weight array at every point. -/
theorem weights_eq (c : Dev nD) (t : Fin cfg1.N) (i : S16x32.Idx) :
    ((iblk1 V c 1 t : Vec Ideal S16x32 .f32) i : EReal) = (V c main_arg5 : FVec Ideal S16x32 .f32) i := by
  obtain ⟨-, -, e2, e3, -, -⟩ := idx_facts t
  unfold iblk1
  rw [View.read_apply]
  show V c main_arg5 _ = V c main_arg5 _
  congr 1
  funext a
  apply Fin.ext
  match a with
  | ⟨0, _⟩ => show win1_1.index t (0 : Fin 2) * 16 + 1 * (i 0).val = (i 0).val; rw [e2]; omega
  | ⟨1, _⟩ => show win1_1.index t (1 : Fin 2) * 32 + 1 * (i 1).val = (i 1).val; rw [e3]; omega

/-- What point t writes back is block t of the product of the whole arrays as the region finds them. -/
theorem flushed_eq (c : Dev nD) (t : Fin cfg1.N) :
    (dat1 V c).flushed 2 t = ((cfg1.win 2).blk t).view.read (Elt Ideal)
      (Host.dotGeneral (φ₁ := .f32) (φ₂ := .f32) Cert.ReferenceIdeal.dot_S100000x16_S16x32_S100000x32_1_0_0_1_n_n none (V c main_v49 : FVec Ideal S100000x16 .f32) (V c main_arg5 : FVec Ideal S16x32 .f32) : FVec Ideal S100000x32 .f32) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x32) hz]
  obtain ⟨-, -, -, -, e4, e5⟩ := idx_facts t
  funext y
  obtain ⟨p, q, rfl⟩ : ∃ (p : Fin 5000) (q : Fin 32), y = ix2 p q := ⟨y 0, y 1, eq_ix2 y⟩
  have hemb : ((cfg1.win 2).blk t).view.emb (ix2 p q) = (ix2 (rowAt t p) q : S100000x32.Idx) := by
    funext a
    apply Fin.ext
    match a with
    | ⟨0, _⟩ => show win1_2.index t (0 : Fin 2) * 5000 + 1 * p.val = 5000 * t.val + p.val; rw [e4]; omega
    | ⟨1, _⟩ => show win1_2.index t (1 : Fin 2) * 32 + 1 * q.val = q.val; rw [e5]; omega
  rw [View.read_apply, hemb]
  exact pay_rel (ρ := rowAt t) _ _ _ _ (rows_rel V c t) (weights_eq V c t) p q

/-- An index of the result array is in point t's block iff each coordinate is in the block's range on its axis. -/
theorem mem_blk (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v57).slice (win1_2.rect t)).set ↔ _
  rw [View.set_slice_whole, Rect.mem_set_unit]
  exact Iff.rfl

/-- Every row of the result array is in some point's block: row r in the block of point r / 5000. -/
theorem cover (i : S100000x32.Idx) : ∃ t : Fin cfg1.N, (cfg1.win 2).flush t = true ∧ i ∈ ((cfg1.win 2).blk t).view.set := by
  have hN : cfg1.N = 20 := N_1
  have h0 : (i 0).val < 100000 := (i 0).isLt
  have h1 : (i 1).val < 32 := (i 1).isLt
  obtain ⟨t, ht⟩ : ∃ t : Fin cfg1.N, t.val = (i 0).val / 5000 := ⟨⟨(i 0).val / 5000, by omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 32 ≤ (i 1).val ∧ (i 1).val < win1_2.index t (1 : Fin 2) * 32 + 32; rw [e5]; omega

/-- The result array after the region: the product of the arrays as the region finds them, all rows at once. -/
theorem final (c : Dev nD) :
    (dat1 V c).arrAt 2 cfg1.N = (Host.dotGeneral (φ₁ := .f32) (φ₂ := .f32) Cert.ReferenceIdeal.dot_S100000x16_S16x32_S100000x32_1_0_0_1_n_n none (V c main_v49 : FVec Ideal S100000x16 .f32) (V c main_arg5 : FVec Ideal S16x32 .f32) : FVec Ideal S100000x32 .f32) :=
  (dat1 V c).arrAt_eq_of_cover 2 _ (fun t _ => flushed_eq V c t) cover

end Cert.KernelIdeal.Second

end
-- ==== Proof.RegionThird.lean ====
/-
  The third region: the examples' paired features times the weight column, plus the bias, through the logistic function;
  20000 examples per grid point.

  Point t of the 25 fetches rows 20000 t … of the paired features, the whole 64 × 1 weight column and the 1 × 1 bias, forms
  x · w + bias row by row and applies the logistic function, which on extended reals is 1 / (1 + exp (−y)) by definition —
  the quotient the host spells out.  The 20000 × 1 blocks tile the result column, so after the region it holds, at every
  example, what the host computes from all 500000 rows at once.
-/
import proofs.«108121_j79963701117029_1_alg».proof.Proof.Gen.KernelIdeal.Frame
import proofs.«108121_j79963701117029_1_alg».proof.Proof.Dots
import proofs.«108121_j79963701117029_1_alg».proof.Proof.Glue
import Idealize.ShloMosaic.Lib.Pipeline.Value

set_option maxRecDepth 16384

noncomputable section

namespace Cert.KernelIdeal.Third

open Idealize.ShloMosaic Idealize.ShloMosaic.TcCoe Idealize.SL.Sem Idealize.ShloMosaic.ValueIdx
open Idealize.ShloMosaic.Pipeline (Dat)
open Cert.KernelIdeal Cert.KernelIdeal.Gen Cert.LibRowRel

-- the buffers' contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The blocks over the grid: point t takes block t of the rows and of the result; every other operand is one whole block. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Row p of point t's block is row 20000 t + p of the array. -/
def rowAt (t : Fin cfg2.N) (p : Fin 20000) : Fin 500000 :=
  ⟨20000 * t.val + p.val, by have h : cfg2.N = 25 := N_2; have ht := t.isLt; have hp := p.isLt; omega⟩

/-- The body's result on a block whose rows are rows of X, with weights equal to W and a bias entry equal to B: its rows are the same rows of
    1 / (1 + exp (−(X · W + B))) — both sides are the sums Σ_k x[p,k] · w[k,q], shifted and squashed alike. -/
theorem pay_rel {ρ : Fin 20000 → Fin 500000} (x0 : Vec Ideal S20000x64 .f32) (x1 : Vec Ideal S64x1 .f32) (x2 : Vec Ideal S1x1 .f32)
    (X : FVec Ideal S500000x64 .f32) (W : FVec Ideal S64x1 .f32) (B : FVec Ideal S1x1 .f32)
    (h0 : Rel ρ (φ := .f32) x0 X) (h1 : ∀ i, (x1 i : EReal) = W i) (h2 : ∀ i, (x2 i : EReal) = B i) :
    Rel ρ (φ := .f32) (k2_pay1 x0 x1 x2) (Cert.Gcn.squash (F := Ideal) (Host.dotGeneral Cert.ReferenceIdeal.dot_S500000x64_S64x1_S500000x1_1_0_0_1_n_n none X W) B) := by
  simp only [k2_pay1, shapeCast_self]
  unfold Cert.Gcn.squash
  exact Rel.logistic (Rel.addf (Rel.matmul Cert.Dots.k3 Cert.Dots.r3 (Rel.truncf_left _ h0) h1 none none) (Rel.biasRow h2 _ _)) _ _

/-- Point t's block of the rows is rows 20000 t … of the array. -/
theorem rows_rel (c : Dev nD) (t : Fin cfg2.N) :
    Rel (rowAt t) (φ := .f32) (iblk2 V c 0 t : Vec Ideal S20000x64 .f32) (V c main_v117 : FVec Ideal S500000x64 .f32) := fun p j => by
  obtain ⟨e0, e1, -, -, -, -, -, -⟩ := idx_facts t
  unfold iblk2
  rw [View.read_apply]
  show V c main_v117 _ = V c main_v117 _
  congr 1
  funext a
  apply Fin.ext
  match a with
  | ⟨0, _⟩ => show win2_0.index t (0 : Fin 2) * 20000 + 1 * p.val = 20000 * t.val + p.val; rw [e0]; omega
  | ⟨1, _⟩ => show win2_0.index t (1 : Fin 2) * 64 + 1 * j.val = j.val; rw [e1]; omega

/-- The weights' block is the whole weight array at every point. -/
theorem weights_eq (c : Dev nD) (t : Fin cfg2.N) (i : S64x1.Idx) :
    ((iblk2 V c 1 t : Vec Ideal S64x1 .f32) i : EReal) = (V c main_arg7 : FVec Ideal S64x1 .f32) i := by
  obtain ⟨-, -, e2, e3, -, -, -, -⟩ := idx_facts t
  unfold iblk2
  rw [View.read_apply]
  show V c main_arg7 _ = V c main_arg7 _
  congr 1
  funext a
  apply Fin.ext
  match a with
  | ⟨0, _⟩ => show win2_1.index t (0 : Fin 2) * 64 + 1 * (i 0).val = (i 0).val; rw [e2]; omega
  | ⟨1, _⟩ => show win2_1.index t (1 : Fin 2) * 1 + 1 * (i 1).val = (i 1).val; rw [e3]; omega

/-- The bias block is the whole 1 × 1 bias array at every point. -/
theorem bias_eq (c : Dev nD) (t : Fin cfg2.N) (i : S1x1.Idx) :
    ((iblk2 V c 2 t : Vec Ideal S1x1 .f32) i : EReal) = (V c main_v118 : FVec Ideal S1x1 .f32) i := by
  obtain ⟨-, -, -, -, e4, e5, -, -⟩ := idx_facts t
  unfold iblk2
  rw [View.read_apply]
  show V c main_v118 _ = V c main_v118 _
  congr 1
  funext a
  apply Fin.ext
  match a with
  | ⟨0, _⟩ => show win2_2.index t (0 : Fin 2) * 1 + 1 * (i 0).val = (i 0).val; rw [e4]; omega
  | ⟨1, _⟩ => show win2_2.index t (1 : Fin 2) * 1 + 1 * (i 1).val = (i 1).val; rw [e5]; omega

/-- What point t writes back is block t of the squashed, shifted product of the whole arrays as the region finds them. -/
theorem flushed_eq (c : Dev nD) (t : Fin cfg2.N) :
    (dat2 V c).flushed 3 t = ((cfg2.win 3).blk t).view.read (Elt Ideal)
      (Cert.Gcn.squash (F := Ideal) (Host.dotGeneral (φ₁ := .f32) (φ₂ := .f32) Cert.ReferenceIdeal.dot_S500000x64_S64x1_S500000x1_1_0_0_1_n_n none (V c main_v117 : FVec Ideal S500000x64 .f32) (V c main_arg7 : FVec Ideal S64x1 .f32)) (V c main_v118 : FVec Ideal S1x1 .f32) : FVec Ideal S500000x1 .f32) := by
  show (cfg2.win 3).cut (grid2.coords t) ((dat2 V c).after 3 t) = _
  rw [after2_3]
  unfold out2_3
  rw [View.canon_unit_zero hz]
  simp only [View.ld_unit_zero (S := S20000x64) hz, View.ld_unit_zero (S := S64x1) hz, View.ld_unit_zero (S := S1x1) hz]
  obtain ⟨-, -, -, -, -, -, e6, e7⟩ := idx_facts t
  funext y
  obtain ⟨p, q, rfl⟩ : ∃ (p : Fin 20000) (q : Fin 1), y = ix2 p q := ⟨y 0, y 1, eq_ix2 y⟩
  have hemb : ((cfg2.win 3).blk t).view.emb (ix2 p q) = (ix2 (rowAt t p) q : S500000x1.Idx) := by
    funext a
    apply Fin.ext
    match a with
    | ⟨0, _⟩ => show win2_3.index t (0 : Fin 2) * 20000 + 1 * p.val = 20000 * t.val + p.val; rw [e6]; omega
    | ⟨1, _⟩ => show win2_3.index t (1 : Fin 2) * 1 + 1 * q.val = q.val; rw [e7]; omega
  rw [View.read_apply, hemb]
  exact pay_rel (ρ := rowAt t) _ _ _ _ _ _ (rows_rel V c t) (weights_eq V c t) (bias_eq V c t) p q

/-- An index of the result array is in point t's block iff each coordinate is in the block's range on its axis. -/
theorem mem_blk (t : Fin cfg2.N) (i : S500000x1.Idx) :
    i ∈ ((cfg2.win 3).blk t).view.set ↔ ∀ a : Fin 2, win2_3.index t a * S20000x1.size a ≤ (i a).val ∧ (i a).val < win2_3.index t a * S20000x1.size a + S20000x1.size a := by
  show i ∈ ((View.whole main_v119).slice (win2_3.rect t)).set ↔ _
  rw [View.set_slice_whole, Rect.mem_set_unit]
  exact Iff.rfl

/-- Every row of the result array is in some point's block: row r in the block of point r / 20000. -/
theorem cover (i : S500000x1.Idx) : ∃ t : Fin cfg2.N, (cfg2.win 3).flush t = true ∧ i ∈ ((cfg2.win 3).blk t).view.set := by
  have hN : cfg2.N = 25 := N_2
  have h0 : (i 0).val < 500000 := (i 0).isLt
  have h1 : (i 1).val < 1 := (i 1).isLt
  obtain ⟨t, ht⟩ : ∃ t : Fin cfg2.N, t.val = (i 0).val / 20000 := ⟨⟨(i 0).val / 20000, by omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 20000 ≤ (i 0).val ∧ (i 0).val < win2_3.index t (0 : Fin 2) * 20000 + 20000; rw [e6, ht]; omega
  | ⟨1, _⟩ => show win2_3.index t (1 : Fin 2) * 1 ≤ (i 1).val ∧ (i 1).val < win2_3.index t (1 : Fin 2) * 1 + 1; rw [e7]; omega

/-- The result array after the region: the squashed, shifted product of the arrays as the region finds them, all rows at once. -/
theorem final (c : Dev nD) :
    (dat2 V c).arrAt 3 cfg2.N = (Cert.Gcn.squash (F := Ideal) (Host.dotGeneral (φ₁ := .f32) (φ₂ := .f32) Cert.ReferenceIdeal.dot_S500000x64_S64x1_S500000x1_1_0_0_1_n_n none (V c main_v117 : FVec Ideal S500000x64 .f32) (V c main_arg7 : FVec Ideal S64x1 .f32)) (V c main_v118 : FVec Ideal S1x1 .f32) : FVec Ideal S500000x1 .f32) :=
  (dat2 V c).arrAt_eq_of_cover 3 _ (fun t _ => flushed_eq V c t) cover

end Cert.KernelIdeal.Third

end
-- ==== Proof.KernelValue.lean ====
/-
  The kernel's result is the network of its arguments.

  Reading the buffers' contents back from the last segment to the first: the result is the third region's column laid out as a
  list; that column is, at every example, 1 / (1 + exp (−(x · w + bias))) of the paired features as the region found them;
  those are the examples' pairs of the second layer of the second region's result; that result is the product of the hidden
  features with the second weights; the hidden features are the first layer of the first region's result; and that result is
  the product of the node features with the first weights.  Each region's product is the same family of sums as the host's
  contraction of all rows at once, so the whole is the network of Glue.lean with the host's contractions.  The 1 × 1 bias array
  the third region reads is the one-entry bias argument reshaped, which holds the same single entry as that argument broadcast.
-/
import proofs.«108121_j79963701117029_1_alg».proof.Proof.KernelFold
import proofs.«108121_j79963701117029_1_alg».proof.Proof.RegionFirst
import proofs.«108121_j79963701117029_1_alg».proof.Proof.RegionSecond
import proofs.«108121_j79963701117029_1_alg».proof.Proof.RegionThird

set_option maxRecDepth 16384

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- After the first region its result array is the node features times the first weights. -/
theorem first_product (c : Dev nD) : W2 m ρ c (Proc.devRef .tc main_v7)
    = Host.dotGeneral (F := Ideal) (φ₁ := .f32) (φ₂ := .f32) Cert.ReferenceIdeal.dot_S100000x128_S128x16_S100000x16_1_0_0_1_n_n none
        ((m ((c : Thread nD τ).loc main_arg0)) : FVec Ideal S100000x128 .f32) ((m ((c : Thread nD τ).loc main_arg3)) : FVec Ideal S128x16 .f32) := by
  have h := (W2_arr m ρ c 2).trans (Cert.KernelIdeal.First.final (V1 m ρ) c)
  rw [show V1 m ρ c main_arg0 = m ((c : Thread nD τ).loc main_arg0) from Cert.KernelIdeal.Fold.w1_arg0 m ρ c,
    show V1 m ρ c main_arg3 = m ((c : Thread nD τ).loc main_arg3) from Cert.KernelIdeal.Fold.w1_arg3 m ρ c] at h
  exact h

/-- After the second region its result array is the hidden features, as the region found them, times the second weights. -/
theorem second_product (c : Dev nD) : W8 m ρ c (Proc.devRef .tc main_v57)
    = Host.dotGeneral (F := Ideal) (φ₁ := .f32) (φ₂ := .f32) Cert.ReferenceIdeal.dot_S100000x16_S16x32_S100000x32_1_0_0_1_n_n none
        (W7 m ρ c (Proc.devRef .tc main_v49) : FVec Ideal S100000x16 .f32) ((m ((c : Thread nD τ).loc main_arg5)) : FVec Ideal S16x32 .f32) := by
  have h := (W8_arr m ρ c 2).trans (Cert.KernelIdeal.Second.final (V7 m ρ) c)
  rw [show V7 m ρ c main_arg5 = m ((c : Thread nD τ).loc main_arg5) from Cert.KernelIdeal.Fold.w7_arg5 m ρ c] at h
  exact h

/-- After the third region its result column is the squashed, shifted product of the paired features, as the region found
    them, with the weight column. -/
theorem scores (c : Dev nD) : W12 m ρ c (Proc.devRef .tc main_v119)
    = Cert.Gcn.squash (F := Ideal) (Host.dotGeneral (φ₁ := .f32) (φ₂ := .f32) Cert.ReferenceIdeal.dot_S500000x64_S64x1_S500000x1_1_0_0_1_n_n none
        (W11 m ρ c (Proc.devRef .tc main_v117) : FVec Ideal S500000x64 .f32) ((m ((c : Thread nD τ).loc main_arg7)) : FVec Ideal S64x1 .f32))
        (W11 m ρ c (Proc.devRef .tc main_v118) : FVec Ideal S1x1 .f32) := by
  have h := (W12_arr m ρ c 3).trans (Cert.KernelIdeal.Third.final (V11 m ρ) c)
  rw [show V11 m ρ c main_arg7 = m ((c : Thread nD τ).loc main_arg7) from Cert.KernelIdeal.Fold.w11_arg7 m ρ c] at h
  exact h

/-- A one-entry list has one index. -/
theorem index_unique (a b : S1.Idx) : a = b := funext fun d => Fin.ext (by
  match d with
  | ⟨0, hd⟩ =>
    have h1 : (a ⟨0, hd⟩).val < 1 := (a ⟨0, hd⟩).isLt
    have h2 : (b ⟨0, hd⟩).val < 1 := (b ⟨0, hd⟩).isLt
    omega)

/-- The one-entry bias reshaped to 1 × 1 and the same bias broadcast to 1 × 1 hold the same entry. -/
theorem one_entry (x : FVec Ideal S1 .f32) :
    shapeCast S1x1 x shapeCasts_S1_S1x1 = broadcastInDim S1x1 ![1] Cert.ReferenceIdeal.Gen.bcast_S1_S1x1_1 x := by
  funext i
  simp only [shapeCast, broadcastInDim]
  exact congrArg x (index_unique _ _)

/-- The result buffer after the last segment: the network of the launch contents of the nine arguments. -/
theorem kernel_result (c : Dev nD) : W13 m ρ c (Proc.devRef .tc main_v120)
    = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (broadcastInDim S1x1 ![1] Cert.ReferenceIdeal.Gen.bcast_S1_S1x1_1 (m ((c : Thread nD τ).loc main_arg8))) := by
  rw [Cert.KernelIdeal.Fold.w13_result m ρ c, scores m ρ c, Cert.KernelIdeal.Fold.w11_pairs m ρ c, Cert.KernelIdeal.Fold.w11_bias m ρ c,
    second_product m ρ c, Cert.KernelIdeal.Fold.w7_hidden m ρ c, first_product m ρ c, one_entry]
  rfl

end Cert.KernelIdeal.Result

end
-- ==== Proof.RefRun.lean ====
/-
  The reference's run.

  The reference is a straight line of 165 array operations (the operations of its two outlined functions stand where they are
  called).  Every weakly fair execution runs them in order and terminates without a fault; afterwards every buffer holds the
  fold of the operations' results over the launch contents.  Read at the result buffer, that fold is the network of Glue.lean
  with its three products computed by the host's contraction and the bias entry taken from the one-entry bias argument laid out
  as a 1 × 1 array; read at an argument it is the launch contents, because no operation writes an argument.
-/
import proofs.«108121_j79963701117029_1_alg».proof.Proof.Gen.ReferenceIdeal
import proofs.«108121_j79963701117029_1_alg».proof.Proof.Glue
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A two-piece concatenation depends on its pieces only through their contents (so a rewriting pass may work inside the pieces). -/
@[local congr] theorem concat2_congr {α : Type} {t s₁ s₂ : Shape} (a : Fin t.rank) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

/-- The program's 165 operations, in order (a called function's operations stand in its call's place). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg0 main_arg3 main_v7 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S3300000 ![] bcast_S_S3300000 : (⟨S_, .i32⟩ : BufTy).Contents (Elt F) → (⟨S3300000, .i32⟩ : BufTy).Contents (Elt F)),
    binary main_v3 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v20 (broadcastInDim S3300000 ![] bcast_S_S3300000 : (⟨S_, .i32⟩ : BufTy).Contents (Elt F) → (⟨S3300000, .i32⟩ : BufTy).Contents (Elt F)),
    binary main_v3 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v17 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v27 (broadcastInDim S3300000 ![] bcast_S_S3300000 : (⟨S_, .i32⟩ : BufTy).Contents (Elt F) → (⟨S3300000, .i32⟩ : BufTy).Contents (Elt F)),
    binary main_v6 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v6 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v17 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)),
    unary main_v32 main_v33 (broadcastInDim S3300000x1 ![0] bcast_S3300000_S3300000x1_0 : (⟨S3300000, .f32⟩ : BufTy).Contents (Elt F) → (⟨S3300000x1, .f32⟩ : BufTy).Contents (Elt F)),
    nullary main_c_7 (constantI S_ 32 0#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v7 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    nullary main_v50 (iotaInDim S100000 32 0),
    unary main_arg1 main_v51 ((extractStridedSlice S1x3200000 ![0, 0] · slices_S2x3200000_S1x3200000_0_0) : (⟨S2x3200000, .i32⟩ : BufTy).Contents (Elt F) → (⟨S1x3200000, .i32⟩ : BufTy).Contents (Elt F)),
    reshape main_v51 main_v52 rfl shapeCasts_S1x3200000_S3200000,
    binary main_v52 main_v50 main_v53 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v54 ((extractStridedSlice S1x3200000 ![1, 0] · slices_S2x3200000_S1x3200000_1_0) : (⟨S2x3200000, .i32⟩ : BufTy).Contents (Elt F) → (⟨S1x3200000, .i32⟩ : BufTy).Contents (Elt F)),
    reshape main_v54 main_v55 rfl shapeCasts_S1x3200000_S3200000,
    binary main_v55 main_v50 main_v56 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v49 main_arg5 main_v57 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    nullary main_cst_10 (constant S_ .f32 0x3F800000#32),
    unary main_cst_10 main_v58 (broadcastInDim S3300000 ![] bcast_S_S3300000 : (⟨S_, .f32⟩ : BufTy).Contents (Elt F) → (⟨S3300000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    unary main_v56 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_12 (constant S_ .f32 0x00000000#32),
    unary main_cst_12 main_v62 (broadcastInDim S100000 ![] bcast_S_S100000 : (⟨S_, .f32⟩ : BufTy).Contents (Elt F) → (⟨S100000, .f32⟩ : BufTy).Contents (Elt F)),
    binary main_v61 main_v62 main_v63 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x3F800000#32),
    unary main_cst_13 main_v64 (broadcastInDim S100000 ![] bcast_S_S100000 : (⟨S_, .f32⟩ : BufTy).Contents (Elt F) → (⟨S100000, .f32⟩ : BufTy).Contents (Elt F)),
    binary main_v61 main_v64 main_v65 (maximumf : (⟨S100000, .f32⟩ : BufTy).Contents (Elt F) → (⟨S100000, .f32⟩ : BufTy).Contents (Elt F) → (⟨S100000, .f32⟩ : BufTy).Contents (Elt F)),
    unary main_v65 main_v66 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v63) (TRef.of (T := ⟨S100000, .f32⟩) main_v66) (TRef.of (T := ⟨S100000, .f32⟩) main_call2_v1) (TRef.of (T := ⟨S100000, .f32⟩) main_v67) select,
    nullary main_c_15 (constantI S_ 32 0#32),
    unary main_c_15 main_v68 (broadcastInDim S3300000 ![] bcast_S_S3300000 : (⟨S_, .i32⟩ : BufTy).Contents (Elt F) → (⟨S3300000, .i32⟩ : BufTy).Contents (Elt F)),
    binary main_v53 main_v68 main_v69 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v70 (broadcastInDim S3300000 ![] bcast_S_S3300000 : (⟨S_, .i32⟩ : BufTy).Contents (Elt F) → (⟨S3300000, .i32⟩ : BufTy).Contents (Elt F)),
    binary main_v53 main_v70 main_v71 (addi : (⟨S3300000, .i32⟩ : BufTy).Contents (Elt F) → (⟨S3300000, .i32⟩ : BufTy).Contents (Elt F) → (⟨S3300000, .i32⟩ : BufTy).Contents (Elt F)),
    ternary main_v69 main_v71 main_v53 main_v72 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v72 main_v73 (broadcastInDim S3300000x1 ![0] bcast_S3300000_S3300000x1_0 : (⟨S3300000, .i32⟩ : BufTy).Contents (Elt F) → (⟨S3300000x1, .i32⟩ : BufTy).Contents (Elt F)),
    binary main_v67 main_v73 main_v74 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v56 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v56 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v56 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v67 main_v80 main_v81 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v74 main_v81 main_v82 (mulf : (⟨S3300000, .f32⟩ : BufTy).Contents (Elt F) → (⟨S3300000, .f32⟩ : BufTy).Contents (Elt F) → (⟨S3300000, .f32⟩ : BufTy).Contents (Elt F)),
    unary main_v82 main_v83 (broadcastInDim S3300000x1 ![0] bcast_S3300000_S3300000x1_0 : (⟨S3300000, .f32⟩ : BufTy).Contents (Elt F) → (⟨S3300000x1, .f32⟩ : BufTy).Contents (Elt F)),
    nullary main_c_19 (constantI S_ 32 0#32),
    unary main_c_19 main_v84 (broadcastInDim S3300000 ![] bcast_S_S3300000 : (⟨S_, .i32⟩ : BufTy).Contents (Elt F) → (⟨S3300000, .i32⟩ : BufTy).Contents (Elt F)),
    binary main_v53 main_v84 main_v85 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v86 (broadcastInDim S3300000 ![] bcast_S_S3300000 : (⟨S_, .i32⟩ : BufTy).Contents (Elt F) → (⟨S3300000, .i32⟩ : BufTy).Contents (Elt F)),
    binary main_v53 main_v86 main_v87 (addi : (⟨S3300000, .i32⟩ : BufTy).Contents (Elt F) → (⟨S3300000, .i32⟩ : BufTy).Contents (Elt F) → (⟨S3300000, .i32⟩ : BufTy).Contents (Elt F)),
    ternary main_v85 main_v87 main_v53 main_v88 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v88 main_v89 (broadcastInDim S3300000x1 ![0] bcast_S3300000_S3300000x1_0 : (⟨S3300000, .i32⟩ : BufTy).Contents (Elt F) → (⟨S3300000x1, .i32⟩ : BufTy).Contents (Elt F)),
    binary main_v57 main_v89 main_v90 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v83 main_v91 (broadcastInDim S3300000x32 ![0, 1] bcast_S3300000x1_S3300000x32_0_1 : (⟨S3300000x1, .f32⟩ : BufTy).Contents (Elt F) → (⟨S3300000x32, .f32⟩ : BufTy).Contents (Elt F)),
    binary main_v91 main_v90 main_v92 (mulf : (⟨S3300000x32, .f32⟩ : BufTy).Contents (Elt F) → (⟨S3300000x32, .f32⟩ : BufTy).Contents (Elt F) → (⟨S3300000x32, .f32⟩ : BufTy).Contents (Elt F)),
    nullary main_cst_21 (constant S_ .f32 0x00000000#32),
    unary main_cst_21 main_v93 (broadcastInDim S100000x32 ![] bcast_S_S100000x32 : (⟨S_, .f32⟩ : BufTy).Contents (Elt F) → (⟨S100000x32, .f32⟩ : BufTy).Contents (Elt F)),
    unary main_v56 main_v94 (broadcastInDim S3300000x1 ![0] bcast_S3300000_S3300000x1_0 : (⟨S3300000, .i32⟩ : BufTy).Contents (Elt F) → (⟨S3300000x1, .i32⟩ : BufTy).Contents (Elt F)),
    ternary main_v93 main_v94 main_v92 main_v95 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg6 main_v96 (broadcastInDim S1x32 ![1] bcast_S32_S1x32_1 : (⟨S32, .f32⟩ : BufTy).Contents (Elt F) → (⟨S1x32, .f32⟩ : BufTy).Contents (Elt F)),
    unary main_v96 main_v97 (broadcastInDim S100000x32 ![0, 1] bcast_S1x32_S100000x32_0_1 : (⟨S1x32, .f32⟩ : BufTy).Contents (Elt F) → (⟨S100000x32, .f32⟩ : BufTy).Contents (Elt F)),
    binary main_v95 main_v97 main_v98 (addf : (⟨S100000x32, .f32⟩ : BufTy).Contents (Elt F) → (⟨S100000x32, .f32⟩ : BufTy).Contents (Elt F) → (⟨S100000x32, .f32⟩ : BufTy).Contents (Elt F)),
    unary main_arg2 main_v99 ((extractStridedSlice S500000x1 ![0, 0] · slices_S500000x2_S500000x1_0_0) : (⟨S500000x2, .i32⟩ : BufTy).Contents (Elt F) → (⟨S500000x1, .i32⟩ : BufTy).Contents (Elt F)),
    reshape main_v99 main_v100 rfl shapeCasts_S500000x1_S500000,
    nullary main_c_22 (constantI S_ 32 0#32),
    unary main_c_22 main_v101 (broadcastInDim S500000 ![] bcast_S_S500000 : (⟨S_, .i32⟩ : BufTy).Contents (Elt F) → (⟨S500000, .i32⟩ : BufTy).Contents (Elt F)),
    binary main_v100 main_v101 main_v102 (cmpi .slt : (⟨S500000, .i32⟩ : BufTy).Contents (Elt F) → (⟨S500000, .i32⟩ : BufTy).Contents (Elt F) → (⟨S500000, .i1⟩ : BufTy).Contents (Elt F)),
    nullary main_c_23 (constantI S_ 32 100000#32),
    unary main_c_23 main_v103 (broadcastInDim S500000 ![] bcast_S_S500000 : (⟨S_, .i32⟩ : BufTy).Contents (Elt F) → (⟨S500000, .i32⟩ : BufTy).Contents (Elt F)),
    binary main_v100 main_v103 main_v104 (addi : (⟨S500000, .i32⟩ : BufTy).Contents (Elt F) → (⟨S500000, .i32⟩ : BufTy).Contents (Elt F) → (⟨S500000, .i32⟩ : BufTy).Contents (Elt F)),
    ternary main_v102 main_v104 main_v100 main_v105 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v105 main_v106 (broadcastInDim S500000x1 ![0] bcast_S500000_S500000x1_0 : (⟨S500000, .i32⟩ : BufTy).Contents (Elt F) → (⟨S500000x1, .i32⟩ : BufTy).Contents (Elt F)),
    binary main_v98 main_v106 main_v107 ((fun x i => Host.gather gather_S100000x32_S500000x1_S500000x32_1_0_n_n_0_1_132 x i) : (⟨S100000x32, .f32⟩ : BufTy).Contents (Elt F) → (⟨S500000x1, .i32⟩ : BufTy).Contents (Elt F) → (⟨S500000x32, .f32⟩ : BufTy).Contents (Elt F)),
    unary main_arg2 main_v108 ((extractStridedSlice S500000x1 ![0, 1] · slices_S500000x2_S500000x1_0_1) : (⟨S500000x2, .i32⟩ : BufTy).Contents (Elt F) → (⟨S500000x1, .i32⟩ : BufTy).Contents (Elt F)),
    reshape main_v108 main_v109 rfl shapeCasts_S500000x1_S500000,
    nullary main_c_24 (constantI S_ 32 0#32),
    unary main_c_24 main_v110 (broadcastInDim S500000 ![] bcast_S_S500000 : (⟨S_, .i32⟩ : BufTy).Contents (Elt F) → (⟨S500000, .i32⟩ : BufTy).Contents (Elt F)),
    binary main_v109 main_v110 main_v111 (cmpi .slt : (⟨S500000, .i32⟩ : BufTy).Contents (Elt F) → (⟨S500000, .i32⟩ : BufTy).Contents (Elt F) → (⟨S500000, .i1⟩ : BufTy).Contents (Elt F)),
    nullary main_c_25 (constantI S_ 32 100000#32),
    unary main_c_25 main_v112 (broadcastInDim S500000 ![] bcast_S_S500000 : (⟨S_, .i32⟩ : BufTy).Contents (Elt F) → (⟨S500000, .i32⟩ : BufTy).Contents (Elt F)),
    binary main_v109 main_v112 main_v113 (addi : (⟨S500000, .i32⟩ : BufTy).Contents (Elt F) → (⟨S500000, .i32⟩ : BufTy).Contents (Elt F) → (⟨S500000, .i32⟩ : BufTy).Contents (Elt F)),
    ternary main_v111 main_v113 main_v109 main_v114 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v114 main_v115 (broadcastInDim S500000x1 ![0] bcast_S500000_S500000x1_0 : (⟨S500000, .i32⟩ : BufTy).Contents (Elt F) → (⟨S500000x1, .i32⟩ : BufTy).Contents (Elt F)),
    binary main_v98 main_v115 main_v116 ((fun x i => Host.gather gather_S100000x32_S500000x1_S500000x32_1_0_n_n_0_1_132 x i) : (⟨S100000x32, .f32⟩ : BufTy).Contents (Elt F) → (⟨S500000x1, .i32⟩ : BufTy).Contents (Elt F) → (⟨S500000x32, .f32⟩ : BufTy).Contents (Elt F)),
    binary main_v107 main_v116 main_v117 ((fun a b => concatenate S500000x64 1 [⟨S500000x32, a⟩, ⟨S500000x32, b⟩] concatenates_S500000x32_S500000x32_S500000x64_d1) : (⟨S500000x32, .f32⟩ : BufTy).Contents (Elt F) → (⟨S500000x32, .f32⟩ : BufTy).Contents (Elt F) → (⟨S500000x64, .f32⟩ : BufTy).Contents (Elt F)),
    binary main_v117 main_arg7 main_v118 ((fun l r => Host.dotGeneral dot_S500000x64_S64x1_S500000x1_1_0_0_1_n_n none l r) : (⟨S500000x64, .f32⟩ : BufTy).Contents (Elt F) → (⟨S64x1, .f32⟩ : BufTy).Contents (Elt F) → (⟨S500000x1, .f32⟩ : BufTy).Contents (Elt F)),
    unary main_arg8 main_v119 (broadcastInDim S1x1 ![1] bcast_S1_S1x1_1 : (⟨S1, .f32⟩ : BufTy).Contents (Elt F) → (⟨S1x1, .f32⟩ : BufTy).Contents (Elt F)),
    unary main_v119 main_v120 (broadcastInDim S500000x1 ![0, 1] bcast_S1x1_S500000x1_0_1 : (⟨S1x1, .f32⟩ : BufTy).Contents (Elt F) → (⟨S500000x1, .f32⟩ : BufTy).Contents (Elt F)),
    binary main_v118 main_v120 main_v121 (addf : (⟨S500000x1, .f32⟩ : BufTy).Contents (Elt F) → (⟨S500000x1, .f32⟩ : BufTy).Contents (Elt F) → (⟨S500000x1, .f32⟩ : BufTy).Contents (Elt F)),
    unary main_v121 main_v122 (Host.negf : (⟨S500000x1, .f32⟩ : BufTy).Contents (Elt F) → (⟨S500000x1, .f32⟩ : BufTy).Contents (Elt F)),
    unary main_v122 main_v123 (Host.exp : (⟨S500000x1, .f32⟩ : BufTy).Contents (Elt F) → (⟨S500000x1, .f32⟩ : BufTy).Contents (Elt F)),
    nullary main_cst_26 (constant S_ .f32 0x3F800000#32),
    unary main_cst_26 main_v124 (broadcastInDim S500000x1 ![] bcast_S_S500000x1 : (⟨S_, .f32⟩ : BufTy).Contents (Elt F) → (⟨S500000x1, .f32⟩ : BufTy).Contents (Elt F)),
    binary main_v124 main_v123 main_v125 (addf : (⟨S500000x1, .f32⟩ : BufTy).Contents (Elt F) → (⟨S500000x1, .f32⟩ : BufTy).Contents (Elt F) → (⟨S500000x1, .f32⟩ : BufTy).Contents (Elt F)),
    nullary main_cst_27 (constant S_ .f32 0x3F800000#32),
    unary main_cst_27 main_v126 (broadcastInDim S500000x1 ![] bcast_S_S500000x1 : (⟨S_, .f32⟩ : BufTy).Contents (Elt F) → (⟨S500000x1, .f32⟩ : BufTy).Contents (Elt F)),
    binary main_v126 main_v125 main_v127 (Host.divf : (⟨S500000x1, .f32⟩ : BufTy).Contents (Elt F) → (⟨S500000x1, .f32⟩ : BufTy).Contents (Elt F) → (⟨S500000x1, .f32⟩ : BufTy).Contents (Elt F)),
    reshape main_v127 main_v128 rfl shapeCasts_S500000x1_S500000 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

/-- What the result buffer ends holding: the network of the launch contents of the nine arguments. -/
def result (m : (ℓ : Loc nD τ sig) → Buf (Elt F) ℓ) (c : Dev nD) : Buf (Elt F) ((c.tc : Thread nD τ).loc main_v128) :=
  Cert.Gcn.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (broadcastInDim S1x1 ![1] bcast_S1_S1x1_1 (m ((c.tc : Thread nD τ).loc main_arg8)))

set_option maxRecDepth 8192 in
set_option maxHeartbeats 66000000 in
/-- On every device, from any memory with zero counters: every weakly fair execution terminates with the result buffer at the
    network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v128).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefValue

end
-- ==== Proof.lean ====
/-
  The kernel and its reference compute one function.

  The kernel is a two-layer graph network with a link-prediction head whose three matrix products (node features × first
  weights, hidden features × second weights, paired features × weight column, the last followed by the bias and the logistic
  function) run as tiled regions, 5000 or 20000 rows per grid point; everything else — the degree count, the edge weights,
  the aggregation over the edges, the lookup of the examples' nodes — is the same array operations in both programs.
  On extended reals the changes of float format before the products are the identity; a product into a zero accumulator and the
  host's contraction are the same sums over the contraction positions; tiling the rows changes nothing, since a row of a
  product depends on that row alone; and the logistic function is 1 / (1 + exp (−y)) by definition, the quotient the reference
  spells out.  So both programs end at the network of Proof/Glue.lean applied to the arguments (Proof/KernelValue.lean for the
  kernel, Proof/RefRun.lean for the reference).  No law is used that needs the inputs finite: the precondition is never opened.
  The idealization rewrote no operation, so there is nothing to preserve.
-/
import proofs.«108121_j79963701117029_1_alg».proof.Defs
import proofs.«108121_j79963701117029_1_alg».proof.Proof.Gen.Kernel
import proofs.«108121_j79963701117029_1_alg».proof.Proof.Gen.Kernel.Skeleton
import proofs.«108121_j79963701117029_1_alg».proof.Proof.Gen.Kernel.Launch
import proofs.«108121_j79963701117029_1_alg».proof.Proof.Gen.Kernel.Points
import proofs.«108121_j79963701117029_1_alg».proof.Proof.Gen.Kernel.Frame
import proofs.«108121_j79963701117029_1_alg».proof.Proof.Gen.KernelIdeal
import proofs.«108121_j79963701117029_1_alg».proof.Proof.Gen.KernelIdeal.Skeleton
import proofs.«108121_j79963701117029_1_alg».proof.Proof.Gen.KernelIdeal.Launch
import proofs.«108121_j79963701117029_1_alg».proof.Proof.Gen.KernelIdeal.Points
import proofs.«108121_j79963701117029_1_alg».proof.Proof.Gen.KernelIdeal.Frame
import proofs.«108121_j79963701117029_1_alg».proof.Proof.Gen.ReferenceIdeal
import proofs.«108121_j79963701117029_1_alg».proof.Proof.Gen.Pre_finite_inputs
import proofs.«108121_j79963701117029_1_alg».proof.Proof.KernelRun
import proofs.«108121_j79963701117029_1_alg».proof.Proof.KernelValue
import proofs.«108121_j79963701117029_1_alg».proof.Proof.RefRun
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read on extended reals. -/
theorem frame_kernel_ideal : Cert.frame_KernelIdeal := fun m ρ _ => Cert.KernelIdeal.Gen.frame m ρ

/-- And the reference: its run, with the result dropped. -/
theorem frame_reference_ideal : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- From memories that agree on the nine arguments both programs end with the network of those arguments in the result buffer. -/
theorem algebraic : Cert.algebraic_KernelIdeal_ReferenceIdeal := by
  intro m ρ m' ρ' _ hagree
  refine ⟨fun c => Cert.KernelIdeal.Gen.W13 m ρ c (Proc.devRef .tc Cert.KernelIdeal.main_v120), Cert.KernelIdeal.Whole.run (F := Ideal) m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7, e8⟩ := hagree c
  show Cert.ReferenceIdeal.RefValue.result m' c = Cert.KernelIdeal.Gen.W13 m ρ c (Proc.devRef .tc Cert.KernelIdeal.main_v120)
  rw [Cert.KernelIdeal.Result.kernel_result m ρ c]
  unfold Cert.ReferenceIdeal.RefValue.result
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
